-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512x32 : Shape := ⟨2, ![512, 32]⟩
abbrev S512 : Shape := ⟨1, ![512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S512x256 .f32) (main_arg1 : FVec F S512x32 .f32) (main_arg2 : IVec S512 32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  main_v8
-- ==== Kernel.lean ====
abbrev S512x256 : Shape := ⟨2, ![512, 256]⟩
abbrev S512x32 : Shape := ⟨2, ![512, 32]⟩
abbrev S512 : Shape := ⟨1, ![512]⟩
abbrev S512x512 : Shape := ⟨2, ![512, 512]⟩
abbrev S512x1 : Shape := ⟨2, ![512, 1]⟩
abbrev S1x512 : Shape := ⟨2, ![1, 512]⟩
abbrev S_ : Shape := ⟨0, ![]⟩
abbrev S1x1 : Shape := ⟨2, ![1, 1]⟩
abbrev S64x128 : Shape := ⟨2, ![64, 128]⟩
abbrev S64x128x1 : Shape := ⟨3, ![64, 128, 1]⟩
abbrev S64x1x128 : Shape := ⟨3, ![64, 1, 128]⟩
abbrev S64x128x128 : Shape := ⟨3, ![64, 128, 128]⟩
abbrev S64 : Shape := ⟨1, ![64]⟩
abbrev S64x1 : Shape := ⟨2, ![64, 1]⟩
abbrev S1 : Shape := ⟨1, ![1]⟩

abbrev nBuf : Space → Nat
  | .hbm => 30
  | .vmem => 11
  | .smem => 0
  | _ => 0

abbrev bufTy : (tb : Table) → Fin (tcTables nBuf tb) → BufTy
  | .hbm, ⟨0, _⟩ => ⟨S512x256, .f32⟩
  | .hbm, ⟨1, _⟩ => ⟨S512x32, .f32⟩
  | .hbm, ⟨2, _⟩ => ⟨S512, .i32⟩
  | .hbm, ⟨3, _⟩ => ⟨S512x512, .f32⟩
  | .hbm, ⟨4, _⟩ => ⟨S512x1, .i32⟩
  | .hbm, ⟨5, _⟩ => ⟨S1x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S512x512, .i1⟩
  | .hbm, ⟨15, _⟩ => ⟨S512x512, .i1⟩
  | .hbm, ⟨16, _⟩ => ⟨S512x512, .i1⟩
  | .hbm, ⟨17, _⟩ => ⟨S512x512, .f32⟩
  | .hbm, ⟨18, _⟩ => ⟨S512x512, .i1⟩
  | .hbm, ⟨19, _⟩ => ⟨S512x512, .f32⟩
  | .hbm, ⟨20, _⟩ => ⟨S_, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S_, .f32⟩
  | .hbm, ⟨27, _⟩ => ⟨S1x1, .f32⟩
  | .hbm, ⟨28, _⟩ => ⟨S_, .f32⟩
  | .hbm, ⟨29, _⟩ => ⟨S_, .f32⟩
  | .local _ .vmem, ⟨0, _⟩ => ⟨S512x256, .f32⟩
  | .local _ .vmem, ⟨1, _⟩ => ⟨S512x512, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S1x1, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨3, ![8, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

class Facts₀ : Prop where
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  bitsLt_bf16_f32 : FTy.bits .bf16 < FTy.bits .f32
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  reducesTo_S512x512_S512_d1 : S512x512.ReducesTo [1] S512
  h_S_ : 0 < S_.numel
  reducesTo_S512_S_d0 : S512.ReducesTo [0] S_
  inb_S1x1_S1x1_0_0 : ∀ a, (![0, 0] : Fin 2 → Nat) a + S1x1.size a ≤ S1x1.size a
  h_S1x1 : 0 < S1x1.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  reduces_S64x128x128_S64x128 : S64x128x128.Reduces [2] S64x128
  reduces_S64x128_S64 : S64x128.Reduces [1] S64
  shapeCasts_S64_S64x1 : S64.ShapeCasts S64x1
  reduces_S64x1_S1 : S64x1.Reduces [0] S1
  shapeCasts_S1_S1x1 : S1.ShapeCasts S1x1
  shapeCasts_S1x1_S1x1 : S1x1.ShapeCasts S1x1
  shapeCasts_S1x1_S_ : S1x1.ShapeCasts S_
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S512x512.size a
  hwx1_0 : ∀ i : grid1.Coords, EltTy.bits .f32 = 32 ∨ (Rect.block (s := S512x512) S64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S512x512.size a
  hwx1_1 : ∀ i : grid1.Coords, EltTy.bits .f32 = 32 ∨ (Rect.block (s := S512x512) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S512x512.size a
  hwx1_2 : ∀ i : grid1.Coords, EltTy.bits .f32 = 32 ∨ (Rect.block (s := S512x512) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S512x512.size a
  hwx1_3 : ∀ i : grid1.Coords, EltTy.bits .f32 = 32 ∨ (Rect.block (s := S512x512) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S64x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S64x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x256 : Shape := ⟨2, ![512, 256]⟩
abbrev S512x32 : Shape := ⟨2, ![512, 32]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S256x512 : Shape := ⟨2, ![256, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 67
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x32, .f32⟩
  | .hbm, ⟨2, _⟩ => ⟨S512, .i32⟩
  | .hbm, ⟨3, _⟩ => ⟨S512x256, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S1x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S256x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x1, .i32⟩
  | .hbm, ⟨22, _⟩ => ⟨S1x512, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S512x512, .i32⟩
  | .hbm, ⟨27, _⟩ => ⟨S512x512, .i32⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .i1⟩
  | .hbm, ⟨33, _⟩ => ⟨S512x512, .i1⟩
  | .hbm, ⟨34, _⟩ => ⟨S512x512, .i1⟩
  | .hbm, ⟨35, _⟩ => ⟨S512x512x1, .i1⟩
  | .hbm, ⟨36, _⟩ => ⟨S512x1x512, .i1⟩
  | .hbm, ⟨37, _⟩ => ⟨S512x512x512, .i1⟩
  | .hbm, ⟨38, _⟩ => ⟨S512x512x512, .i1⟩
  | .hbm, ⟨39, _⟩ => ⟨S512x512x512, .i1⟩
  | .hbm, ⟨40, _⟩ => ⟨S512x512x1, .f32⟩
  | .hbm, ⟨41, _⟩ => ⟨S512x1x512, .f32⟩
  | .hbm, ⟨42, _⟩ => ⟨S512x512x512, .f32⟩
  | .hbm, ⟨43, _⟩ => ⟨S512x512x512, .f32⟩
  | .hbm, ⟨44, _⟩ => ⟨S512x512x512, .f32⟩
  | .hbm, ⟨45, _⟩ => ⟨S_, .f32⟩
  | .hbm, ⟨46, _⟩ => ⟨S512x512x512, .f32⟩
  | .hbm, ⟨47, _⟩ => ⟨S512x512x512, .f32⟩
  | .hbm, ⟨48, _⟩ => ⟨S512x512x512, .f32⟩
  | .hbm, ⟨49, _⟩ => ⟨S512x512x512, .f32⟩
  | .hbm, ⟨50, _⟩ => ⟨S_, .f32⟩
  | .hbm, ⟨51, _⟩ => ⟨S512x512x512, .f32⟩
  | .hbm, ⟨52, _⟩ => ⟨S512x512x512, .f32⟩
  | .hbm, ⟨53, _⟩ => ⟨S_, .f32⟩
  | .hbm, ⟨54, _⟩ => ⟨S512x512x512, .f32⟩
  | .hbm, ⟨55, _⟩ => ⟨S512x512x512, .f32⟩
  | .hbm, ⟨56, _⟩ => ⟨S_, .f32⟩
  | .hbm, ⟨57, _⟩ => ⟨S_, .f32⟩
  | .hbm, ⟨58, _⟩ => ⟨S512x512x512, .f32⟩
  | .hbm, ⟨59, _⟩ => ⟨S512x512x512, .f32⟩
  | .hbm, ⟨60, _⟩ => ⟨S_, .f32⟩
  | .hbm, ⟨61, _⟩ => ⟨S_, .f32⟩
  | .hbm, ⟨62, _⟩ => ⟨S512x512x512, .i32⟩
  | .hbm, ⟨63, _⟩ => ⟨S_, .i32⟩
  | .hbm, ⟨64, _⟩ => ⟨S_, .i32⟩
  | .hbm, ⟨65, _⟩ => ⟨S_, .f32⟩
  | .hbm, ⟨66, _⟩ => ⟨S_, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_call0_v0 : Ref sig .tc := ⟨.hbm, 57, rfl⟩
abbrev main_call0_v1 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_c_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x256_S256x512_1_0 : S512x256.Transposes [1, 0] S256x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  reducesTo_S512x512x512_S_d0_1_2 : S512x512x512.ReducesTo [0, 1, 2] S_
  natLt_1_32 : 1 < 32
  dot_S512x256_S256x512_S512x512_1_0_0_1_n_n_wf : DotDims.WF S512x256 S256x512 S512x512 [1] [0] [0] [1] [] []

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

class Facts : Prop extends Facts₀ where

variable [Facts]
-- ==== Proof.K.Reg0.lean ====
/-
  The distance kernel's region (one grid point): what its body leaves, and the pipeline's proof data.

  The grid has a single point. The body reads the whole 512×256 feature block, computes the 512×512 distance
  matrix from it as one pure term, and stores that term over the whole output block; it also reads the output's
  staging buffer once before the store, a value it never uses. So after the body the output buffer holds the
  distance term of the feature block, whatever it held before, and the input buffer is as found.
-/
import proofs.«127717_j42193758716072_2_alg».proof.Proof.Gen.Kernel.Launch
import proofs.«127717_j42193758716072_2_alg».proof.Proof.Gen.Kernel.Skeleton
import proofs.«127717_j42193758716072_2_alg».proof.Proof.Gen.Kernel.Points
import Idealize.ShloMosaic.Lib.Pipeline.FrameBody
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents on each core when a region is entered: every statement below is made at such contents. -/
variable (V : (c : Dev nD) → (b : Ref sig .tc) → Buf (Elt F) ((c : Thread nD τ).loc b))

/-! ## The windows' blocks -/

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over the entry contents whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The whole input block and the whole output block as rectangles. -/
abbrev rIn0 : Rect S512x256 := Rect.unit (s := S512x256) ![0, 0] S512x256.size inb_S512x256_S512x256_0_0
abbrev rOut0 : Rect S512x512 := Rect.unit (s := S512x512) ![0, 0] S512x512.size inb_S512x512_S512x512_0_0

/-- The output buffer after the body, from the input block: its one store, of the distance term. -/
def out0_1 (x0 : Vec F S512x256 .f32) : Vec F S512x512 .f32 :=
  View.canon [⟨rOut0, k0_pay1 (View.ld x0 rIn0)⟩]

/-- The one store covers the buffer. -/
theorem cover0_1 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

/-! ## The body's triple -/

set_option maxHeartbeats 1000000 in
/-- The body on whole staging memrefs, the input's at read contents `x0` and the output's at anything, runs to the
    continuation holding the input's as it was and the output's at `out0_1 x0`. -/
theorem sound_kernel0 (c : Dev nD) (E : Set ℕ) (i : grid0.Coords) (arg1 : Memref sig .tc .vmem S512x256 .f32) (harg1 : arg1.IsWhole)
    (arg2 : Memref sig .tc .vmem S512x512 .f32) (harg2 : arg2.IsWhole)
    (x0 : Vec F S512x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pdist_kernel i arg1 harg1 arg2 harg2) K := by
  simp only [cc0__pdist_kernel_eq_skeleton]; unfold cc0__pdist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the distance pipeline on core `c`: the arrays at the entry contents; after the body the input's
    buffer at its block and the output's at the distance term of that block; the invariant is the scoped buffers no window
    stages and the random-number register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any point: the input's memref holds its block, the triple applies, the invariant and the core's dues pass
    through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.K.Reg1.lean ====
/-
  The triplet-sum kernel's region (a grid of 8 × 4 × 4 = 128 points): what its body leaves point by point, and the
  pipeline's proof data.

  At every point the body reads four 64×128 blocks — a block of distances for (anchor, positive), one for (anchor,
  negative), and the matching blocks of the two masks — and the 1×1 output buffer, and stores back the buffer's value
  plus the block's sum. At the first point only it first stores zero into the buffer. The buffer is written back to
  its array only after the last point, so between points it keeps what the body left: a running sum over the points.
  Two of the four input windows read one and the same array (the distance matrix), each holding half of it.
-/
import proofs.«127717_j42193758716072_2_alg».proof.Proof.Gen.Kernel.Launch
import proofs.«127717_j42193758716072_2_alg».proof.Proof.Gen.Kernel.Skeleton
import proofs.«127717_j42193758716072_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents on each core when a region is entered: every statement below is made at such contents. -/
variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (an unfetched window's block
    index has not moved), for any proof data over the entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The first-point condition -/

/-- The body's one branch condition, from the grid coordinates: all three are zero. -/
abbrev cond1 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) : BitVec 32) 0#32) = 1#1
/-- It holds at the first point only — decided over the grid. -/
theorem hcond1 : ∀ t : Fin cfg1.N, cond1 (grid1.coords t) ↔ t.val % 128 = 0 :=
  (by decide +kernel : ∀ t : Fin grid1.N, cond1 (grid1.coords t) ↔ t.val % 128 = 0)

/-- One staging buffer of the output window, through which its contents are stated. -/
abbrev VO1_4 : View sig .tc .vmem S1x1 .f32 := (Memref.whole cc1_stg4_0 : Memref sig .tc .vmem S1x1 .f32).view
/-- Each window's current staging memref at point `t`, as the pipeline passes it, and its wholeness. -/
abbrev ms1_0 (t : Fin cfg1.N) : Memref sig .tc .vmem S64x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-! ## The body's triple, case by case -/

set_option maxHeartbeats 2000000 in
/-- At the first point (the condition holds): the output buffer may hold anything; the stores the body makes into it are
    the witness the run finds. -/
noncomputable def kernelRun1_A (c : Dev nD) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : cond1 i)
    (x0 : Vec F S64x128 .f32) (x1 : Vec F S64x128 .f32) (x2 : Vec F S64x128 .f32) (x3 : Vec F S64x128 .f32) :
    { L4 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc1__triplet_kernel i arg3 harg3 arg4 harg4 arg5 harg5 arg6 harg6 arg7 harg7) K } := by
  refine ⟨?_, fun E K => ?run⟩
  case run =>
    simp only [cc1__triplet_kernel_eq_skeleton]; unfold cc1__triplet_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

set_option maxHeartbeats 2000000 in
/-- At every other point (the condition fails): the output buffer holds the running contents `xo`, which the body reads
    before storing over them. -/
noncomputable def kernelRun1_B (c : Dev nD) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : ¬cond1 i)
    (x0 : Vec F S64x128 .f32) (x1 : Vec F S64x128 .f32) (x2 : Vec F S64x128 .f32) (x3 : Vec F S64x128 .f32) (xo : Vec F S1x1 .f32) :
    { L4 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc1__triplet_kernel i arg3 harg3 arg4 harg4 arg5 harg5 arg6 harg6 arg7 harg7) K } := by
  refine ⟨?_, fun E K => ?run⟩
  case run =>
    simp only [cc1__triplet_kernel_eq_skeleton]; unfold cc1__triplet_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-! ## What each case leaves in the output buffer -/

theorem cover1_A (c : Dev nD) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : cond1 i) (x0 : Vec F S64x128 .f32) (x1 : Vec F S64x128 .f32) (x2 : Vec F S64x128 .f32) (x3 : Vec F S64x128 .f32) (y : S1x1.Idx) :
    ∃ pc ∈ (kernelRun1_A c i arg3 harg3 arg4 harg4 arg5 harg5 arg6 harg6 arg7 harg7 hc0 x0 x1 x2 x3).1, y ∈ pc.1.set :=
  View.cover_of_tiledL (kernelRun1_A c i arg3 harg3 arg4 harg4 arg5 harg5 arg6 harg6 arg7 harg7 hc0 x0 x1 x2 x3).1 S1x1.size (by sl_kernel_rfl) y

/-- What the first point leaves in the output buffer: its stores read back. -/
def out1_A (c : Dev nD) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : cond1 i) (x0 : Vec F S64x128 .f32) (x1 : Vec F S64x128 .f32) (x2 : Vec F S64x128 .f32) (x3 : Vec F S64x128 .f32) : Vec F S1x1 .f32 :=
  VO1_4.read (Elt F) (VO1_4.writes (Elt F) VO1_4.junk (kernelRun1_A c i arg3 harg3 arg4 harg4 arg5 harg5 arg6 harg6 arg7 harg7 hc0 x0 x1 x2 x3).1)

theorem cover1_B (c : Dev nD) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : ¬cond1 i) (x0 : Vec F S64x128 .f32) (x1 : Vec F S64x128 .f32) (x2 : Vec F S64x128 .f32) (x3 : Vec F S64x128 .f32) (xo : Vec F S1x1 .f32) (y : S1x1.Idx) :
    ∃ pc ∈ (kernelRun1_B c i arg3 harg3 arg4 harg4 arg5 harg5 arg6 harg6 arg7 harg7 hc0 x0 x1 x2 x3 xo).1, y ∈ pc.1.set :=
  View.cover_of_tiledL (kernelRun1_B c i arg3 harg3 arg4 harg4 arg5 harg5 arg6 harg6 arg7 harg7 hc0 x0 x1 x2 x3 xo).1 S1x1.size (by sl_kernel_rfl) y

/-- What a later point leaves in the output buffer, over the running contents it found. -/
def out1_B (c : Dev nD) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : ¬cond1 i) (x0 : Vec F S64x128 .f32) (x1 : Vec F S64x128 .f32) (x2 : Vec F S64x128 .f32) (x3 : Vec F S64x128 .f32) (xo : Vec F S1x1 .f32) : Vec F S1x1 .f32 :=
  VO1_4.read (Elt F) (VO1_4.writes (Elt F) VO1_4.junk (kernelRun1_B c i arg3 harg3 arg4 harg4 arg5 harg5 arg6 harg6 arg7 harg7 hc0 x0 x1 x2 x3 xo).1)

/-! ## The running contents, point by point -/

/-- What the output's staging buffer holds after the body at position `n`: the first point's contents at `0`, and at
    `n + 1` the later-point contents over what position `n` left (the buffer is not written back in between). -/
def outsAt1 (c : Dev nD) : (n : ℕ) → n < cfg1.N → Vec F S1x1 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 128 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

theorem outsAt1_A (c : Dev nD) (t : Fin cfg1.N) (h0 : t.val % 128 = 0) :
    outsAt1 V c t.val t.isLt = out1_A c (grid1.coords t) (ms1_0 t) (hs1_0 t) (ms1_1 t) (hs1_1 t) (ms1_2 t) (hs1_2 t) (ms1_3 t) (hs1_3 t) (ms1_4 t) (hs1_4 t) ((hcond1 t).mpr h0) (iblk1 V c 0 t) (iblk1 V c 1 t) (iblk1 V c 2 t) (iblk1 V c 3 t) := by
  obtain ⟨n, hn⟩ := t
  cases n with
  | zero => exact rfl
  | succ n => exact (dif_pos h0).trans rfl

theorem outsAt1_B (c : Dev nD) (t : Fin cfg1.N) (h0 : ¬t.val % 128 = 0) :
    outsAt1 V c t.val t.isLt = out1_B c (grid1.coords t) (ms1_0 t) (hs1_0 t) (ms1_1 t) (hs1_1 t) (ms1_2 t) (hs1_2 t) (ms1_3 t) (hs1_3 t) (ms1_4 t) (hs1_4 t) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the triplet-sum pipeline on core `c`: the arrays at the entry contents; after the body each input's
    buffer at its block and the output's at the running contents; the invariant is the scoped buffers no window stages and
    the random-number register; nothing owed; the two windows on the distance matrix hold complementary halves of it, the
    mask windows their arrays whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point the output's staging buffer holds what the body left at the point before: the buffer is written back
    only after the last point. -/
theorem before1_4_B (c : Dev nD) (t : Fin cfg1.N) (h0 : ¬t.val % 128 = 0) (d) :
    (dat1 V c).before 4 t d = outsAt1 V c (t.val - 1) (Nat.lt_of_le_of_lt (Nat.sub_le _ _) t.isLt) := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the closed form says which case the point is in; at a
    later point the output's buffer holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 128 = 0
  · rw [outsAt1_A V c t h0]
    unfold out1_A
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A c _ _ _ _ _ _ _ _ _ _ _ _ _ _ _ _)
  · rw [outsAt1_B V c t h0]
    simp only [before1_4_B V c t h0]
    unfold out1_B
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.K.Segs0.lean ====
/-
  The program's two regions as segments of its run: the contents of the buffers between items, the proof data of both
  pipelines at their entry contents, and the distance region's record.

  Between two items of the program a core holds every unscoped buffer whole, at known contents, beside its random-number
  register at some state and the fact that it owes nothing. A region takes its windows' arrays out of those buffers at
  entry and puts them back at exit, the output's array at what the write-backs left.
-/
import proofs.«127717_j42193758716072_2_alg».proof.Proof.K.Reg0
import proofs.«127717_j42193758716072_2_alg».proof.Proof.K.Reg1
import proofs.«127717_j42193758716072_2_alg».proof.Proof.Gen.Kernel.Regions
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between items -/

/-- At launch (the distance region's entry), read at the TensorCore's references. -/
abbrev VV0 : (c : Dev nD) → (b : Ref sig .tc) → Buf (Elt F) ((c : Thread nD τ).loc b) := fun c b => Gen.V0 m c b

/-- What the distance region leaves in its output array: what the pipeline's write-backs fold to. -/
def o1 (c : Dev nD) : Buf (Elt F) ((c : Thread nD τ).loc main_v0) := (dat0 (VV0 m) c).arrAt 1 cfg0.N

/-- After the distance region, and after the host operations that follow it (the triplet region's entry). -/
abbrev U1 (c : Dev nD) : Valuation τ sig (Elt F) := Function.update (Gen.V0 m c) main_v0 (o1 m c)
abbrev U2 (c : Dev nD) : Valuation τ sig (Elt F) := StableHlo.after hostOps1 (U1 m c)
abbrev VV2 : (c : Dev nD) → (b : Ref sig .tc) → Buf (Elt F) ((c : Thread nD τ).loc b) := fun c b => U2 m c b

/-- What the triplet region leaves in its output array. -/
def o3 (c : Dev nD) : Buf (Elt F) ((c : Thread nD τ).loc main_v20) := (dat1 (VV2 m) c).arrAt 4 cfg1.N

/-- What the regions leave, as one family: the distance matrix in `main_v0`, the sum in `main_v20`. -/
def outs : Gen.Outs (F := F) := fun _ r c =>
  if h : r = main_v0 then h ▸ o1 m c else if h' : r = main_v20 then h' ▸ o3 m c else m ((c : Thread nD τ).loc r)

theorem outs_v0 (j : ℕ) (c : Dev nD) : outs m j main_v0 c = o1 m c := by
  unfold outs; rw [dif_pos rfl]
theorem outs_v20 (j : ℕ) (c : Dev nD) : outs m j main_v20 c = o3 m c := by
  unfold outs; rw [dif_neg (by decide), dif_pos rfl]

theorem V1_eq (c : Dev nD) : Gen.V1 m (outs m) c = U1 m c := by
  unfold Gen.V1 U1; rw [outs_v0]
theorem V2_eq (c : Dev nD) : Gen.V2 m (outs m) c = U2 m c := by
  unfold Gen.V2 U2; rw [V1_eq]
theorem V3_eq (c : Dev nD) : Gen.V3 m (outs m) c = Function.update (U2 m c) main_v20 (o3 m c) := by
  unfold Gen.V3; rw [V2_eq, outs_v20]

/-! ## The proof data family and the rest state -/

/-- Both pipelines' proof data, each at its region's entry contents. -/
def pdats : (p : Fin 2) → (c : Dev nD) → Dat τ (Elt F) Unit ℕ (UR sig nD τ) ℕ (cfgs p) c
  | ⟨0, _⟩ => fun c => dat0 (VV0 m) c
  | ⟨1, _⟩ => fun c => dat1 (VV2 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's random-number register at some state, and its dues, none. -/
abbrev R (c : Dev nD) : sProp 𝕄 := iprop((∃ r, prngReg c r) ∗ ∃ W, owes (c : Thread nD τ) (0 : CellTallies nD τ sig Unit) W)

/-! ## The distance region -/

/-- At the distance region's exit its arrays hold what the pipeline leaves: the feature array as entered, the output
    array the write-back. -/
theorem hF0 (c : Dev nD) (w : Fin cfg0.W) : (pdats m 0 c).arrAt w cfg0.N = (fun b : Ref sig .tc => Gen.V1 m (outs m) c b) (Pipeline.arrRef spec0 w) := by
  rw [V1_eq]
  match w with
  | ⟨0, _⟩ =>
    refine ((pdats m 0 c).arrAt_in 0 rfl _).trans ?_
    exact (A_eq0 (VV0 m) c 0).trans (Function.update_of_ne (StableHlo.devRef_ne_of_ne (by decide)) _ _).symm
  | ⟨1, _⟩ => exact (Function.update_self (f := Gen.V0 m c) (Proc.devRef .tc main_v0) (o1 m c)).symm

theorem hrest0 (c : Dev nD) : ∀ b : Ref sig .tc, b ∉ Finset.univ.image (Pipeline.arrRef spec0) →
    (fun b : Ref sig .tc => Gen.V1 m (outs m) c b) b = VV0 m c b := fun b hb =>
  Gen.V1_of m (outs m) c b (fun h => hb (Finset.mem_image.mpr ⟨1, Finset.mem_univ _, (List.mem_singleton.mp h).symm⟩))

set_option backward.isDefEq.respectTransparency.types false in
/-- The distance region over the thread state: entered from every unscoped buffer at the launch contents, left with the
    output array at the write-back. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VV0 m c) (fun b : Ref sig .tc => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.K.Segs1.lean ====
/-
  The triplet-sum region's record. Two of its input windows read one array, the distance matrix: at entry the core's
  holding of that array is split in two halves, one per window, and at exit the halves — both still at the entry
  contents, as inputs are — are joined again. The other three arrays (the two masks, the output) are held whole.
-/
import proofs.«127717_j42193758716072_2_alg».proof.Proof.K.Segs0

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The four buffers behind the five windows -/

/-- The distinct arrays of the region's windows. -/
def arr4 : Fin 4 → Ref sig .tc := ![main_v0, main_v13, main_v15, main_v20]
theorem arr4_inj : Function.Injective arr4 := by decide
theorem image_arrRef1 : Finset.univ.image (Pipeline.arrRef spec1) = Finset.univ.map ⟨arr4, arr4_inj⟩ := by decide

theorem bigSep_4 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- The buffers behind the windows' arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v13) ↦{fullShare} V main_v13)
          ∗ (((c : Thread nD τ).loc main_v15) ↦{fullShare} V main_v15) ∗ (((c : Thread nD τ).loc main_v20) ↦{fullShare} V main_v20)) := by
  unfold Pipeline.arrBufs
  rw [image_arrRef1, bigSep_map, bigSep_4]
  rfl

/-- The proof data's arrays, window by window: the distance matrix twice, at complementary halves. -/
theorem arrays1_eq (c : Dev nD) (A : (w : Fin cfg1.W) → Buf (Elt F) ((cfg1.win w).arr.view.loc (c : Thread nD τ))) :
    ((pdats m 1 c).arrays A : sProp 𝕄)
      = iprop((((c : Thread nD τ).loc main_v0) ↦{fullShare.left} A 0) ∗ (((c : Thread nD τ).loc main_v0) ↦{fullShare.right} A 1)
          ∗ (((c : Thread nD τ).loc main_v13) ↦{fullShare} A 2) ∗ (((c : Thread nD τ).loc main_v15) ↦{fullShare} A 3)
          ∗ (((c : Thread nD τ).loc main_v20) ↦{fullShare} A 4)) := by
  unfold Pipeline.Dat.arrays
  rw [bigSep_W1]
  have h0 : ((cfgs 1).win 0).arr.view.set = Finset.univ := (arr_whole1 0).set_eq_univ
  have h1 : ((cfgs 1).win 1).arr.view.set = Finset.univ := (arr_whole1 1).set_eq_univ
  have h2 : ((cfgs 1).win 2).arr.view.set = Finset.univ := (arr_whole1 2).set_eq_univ
  have h3 : ((cfgs 1).win 3).arr.view.set = Finset.univ := (arr_whole1 3).set_eq_univ
  have h4 : ((cfgs 1).win 4).arr.view.set = Finset.univ := (arr_whole1 4).set_eq_univ
  rw [h0, h1, h2, h3, h4]
  rfl

/-- ENTRY: the four buffers at the entry contents make the proof data's arrays there. -/
theorem arrays1_of_bufs (c : Dev nD) :
    (Pipeline.arrBufs (Ix := Unit) (Name := ℕ) (U := UR sig nD τ) (Lvl := ℕ) spec1 c (VV2 m c) : sProp 𝕄)
      ⊢ (pdats m 1 c).arrays ((pdats m 1 c).arrAt · 0) := by
  rw [arrBufs1_eq, arrays1_eq]
  iintro ⟨H0, H13, H15, H20⟩
  ihave Hs := (pointsTo_share (PosShare.mem_left_op_right fullShare)).1 $$ H0
  icases Hs with ⟨Hl, Hr⟩
  isplitl [Hl]; · iexact Hl
  isplitl [Hr]; · iexact Hr
  isplitl [H13]; · iexact H13
  isplitl [H15]; · iexact H15
  iexact H20

/-- At the region's exit the four input windows' arrays are as entered. -/
theorem arrAt1_in (c : Dev nD) (w : Fin cfg1.W) (hw : (cfg1.win w).isOut = false) :
    (pdats m 1 c).arrAt w cfg1.N = VV2 m c (Pipeline.arrRef spec1 w) :=
  ((pdats m 1 c).arrAt_in w hw _).trans (A_eq1 (VV2 m) c w)

/-- EXIT: the proof data's arrays at their final contents make the four buffers at the contents updated at the output's
    array. -/
theorem bufs_of_arrays1 (c : Dev nD) :
    ((pdats m 1 c).arrays ((pdats m 1 c).arrAt · cfg1.N) : sProp 𝕄)
      ⊢ Pipeline.arrBufs (Ix := Unit) (Name := ℕ) (U := UR sig nD τ) (Lvl := ℕ) spec1 c (fun b : Ref sig .tc => Gen.V3 m (outs m) c b) := by
  rw [arrBufs1_eq, arrays1_eq, V3_eq]
  rw [arrAt1_in m c 0 rfl, arrAt1_in m c 1 rfl, arrAt1_in m c 2 rfl, arrAt1_in m c 3 rfl]
  rw [show (Function.update (U2 m c) (Proc.devRef .tc main_v20) (o3 m c)) (Proc.devRef .tc main_v0) = U2 m c (Proc.devRef .tc main_v0) from Function.update_of_ne (StableHlo.devRef_ne_of_ne (by decide)) _ _,
    show (Function.update (U2 m c) (Proc.devRef .tc main_v20) (o3 m c)) (Proc.devRef .tc main_v13) = U2 m c (Proc.devRef .tc main_v13) from Function.update_of_ne (StableHlo.devRef_ne_of_ne (by decide)) _ _,
    show (Function.update (U2 m c) (Proc.devRef .tc main_v20) (o3 m c)) (Proc.devRef .tc main_v15) = U2 m c (Proc.devRef .tc main_v15) from Function.update_of_ne (StableHlo.devRef_ne_of_ne (by decide)) _ _,
    show (Function.update (U2 m c) (Proc.devRef .tc main_v20) (o3 m c)) (Proc.devRef .tc main_v20) = o3 m c from Function.update_self _ _ _]
  iintro ⟨Hl, Hr, H13, H15, H20⟩
  isplitl [Hl Hr]
  · iapply (pointsTo_share (PosShare.mem_left_op_right fullShare)).2
    isplitl [Hl]; · iexact Hl
    iexact Hr
  isplitl [H13]; · iexact H13
  isplitl [H15]; · iexact H15
  iexact H20

/-- Off the region's arrays nothing changes across it. -/
theorem rest1_eq (c : Dev nD) :
    (Pipeline.unscopedRest (Ix := Unit) (Name := ℕ) (U := UR sig nD τ) (Lvl := ℕ) spec1 c (VV2 m c) : sProp 𝕄)
      = Pipeline.unscopedRest spec1 c (fun b : Ref sig .tc => Gen.V3 m (outs m) c b) := by
  unfold Pipeline.unscopedRest
  refine bigSep_congr fun b hb => ?_
  have hb' : b ∉ Finset.univ.image (Pipeline.arrRef spec1) := (Finset.mem_sdiff.mp hb).2
  have hne : b ≠ main_v20 := fun e => hb' (Finset.mem_image.mpr ⟨4, Finset.mem_univ _, e.symm⟩)
  rw [show (fun b : Ref sig .tc => Gen.V3 m (outs m) c b) b = VV2 m c b from by
    show Gen.V3 m (outs m) c b = U2 m c b
    rw [V3_eq]; exact Function.update_of_ne (StableHlo.devRef_ne_of_ne hne) _ _]

set_option backward.isDefEq.respectTransparency.types false in
/-- The triplet-sum region over the thread state: entered from every unscoped buffer at the contents the host operations
    left, left with the output array at the running sum's last value. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none, V2_eq]
    have hsplit := Pipeline.unscopedBufs_split₀ (cfgs := cfgs) (p := 1) (Ix := Unit) (Name := ℕ) (U := UR sig nD τ) (Lvl := ℕ) (Val := Elt F) winFacts₀1.arr_unscoped c (VV2 m c)
    rw [Pipeline.unscopedBufs_held] at hsplit
    iintro ⟨⟨Hub, Hp, HO⟩, -, -⟩
    ihave H := (Entails.of_eq hsplit) $$ Hub
    icases H with ⟨Hb, Hrest⟩
    ihave Ha := (arrays1_of_bufs m c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit := Pipeline.unscopedBufs_split₀ (cfgs := cfgs) (p := 1) (Ix := Unit) (Name := ℕ) (U := UR sig nD τ) (Lvl := ℕ) (Val := Elt F) winFacts₀1.arr_unscoped c (fun b : Ref sig .tc => Gen.V3 m (outs m) c b)
    rw [Pipeline.unscopedBufs_held] at hsplit
    iintro ⟨Ha, HO, HY, Hrest⟩
    ihave Hb := (bufs_of_arrays1 m c) $$ Ha
    ihave Hrest' := (Entails.of_eq (rest1_eq m c)) $$ Hrest
    imodintro
    isplitl [Hb Hrest']
    · iapply (Entails.of_eq hsplit.symm); isplitl [Hb] <;> iassumption
    isplitl [HY]; · iexact HY
    unfold Pipeline.Dat.owesAt Pipeline.owesWithin
    icases HO with ⟨%W, -, HO⟩; iexists W; iexact HO

end Cert.Kernel.Run

end
-- ==== Proof.K.RunMain.lean ====
/-
  The program's run: from any memory, every weakly fair execution terminates without a fault, the three arguments end
  as launched, and the result buffer ends at the last item's contents — the sum the triplet region left, reshaped, over
  the count the host operations computed.

  The run is the library's launch over the four items (distance region, host operations, triplet region, host
  operations): the thread state between items is every unscoped buffer at known contents beside the random-number register
  and empty dues; consecutive items' states agree as written; the launch makes the first one; the last one, read
  against the final memory, gives each buffer's final contents.
-/
import proofs.«127717_j42193758716072_2_alg».proof.Proof.K.Segs1

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg)

variable (m : (ℓ : Loc nD τ sig) → Buf (Elt F) ℓ)

/-- The rest state at every boundary. -/
abbrev E : Fin 3 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, with the result named. -/
theorem run_main (ρ : Dev nD → PrngReg) :
    θ_run defs (onTc (τ := τ) (main (F := F))) ⟨m, fun _ => 0, ρ⟩ (fun r => ∀ c : Dev nD,
      r.2.mem ((c.tc : Thread nD τ).loc main_v22) = Gen.V4 m (outs m) c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Seg.run_eq_chain,
        show (Gen.segs m (outs m) 𝒱₀ L lv E () (pdats m) (reg0 m) (reg1 m) c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, .rfl, .rfl, sep_mono .rfl (by iintro ⟨-, HO⟩; iexact HO)⟩)
    (hinit := ?_)
    (QY := fun c s => s.mem ((c.tc : Thread nD τ).loc main_v22) = Gen.V4 m (outs m) c main_v22
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨h (Proc.devRef .tc main_v22) (mem_uc main_v22 (by decide)),
        (h (Proc.devRef .tc main_arg0) (mem_uc main_arg0 (by decide))).trans (Gen.V4_main_arg0 m (outs m) c),
        (h (Proc.devRef .tc main_arg1) (mem_uc main_arg1 (by decide))).trans (Gen.V4_main_arg1 m (outs m) c),
        (h (Proc.devRef .tc main_arg2) (mem_uc main_arg2 (by decide))).trans (Gen.V4_main_arg2 m (outs m) c)⟩
    · iexact HSI

/-- THE FRAME: every execution terminates without a fault and the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Run

end
-- ==== Proof.KI.Reg0.lean ====
/-
  The distance kernel's region (one grid point): what its body leaves, and the pipeline's proof data.

  The grid has a single point. The body reads the whole 512×256 feature block, computes the 512×512 distance
  matrix from it as one pure term, and stores that term over the whole output block; it also reads the output's
  staging buffer once before the store, a value it never uses. So after the body the output buffer holds the
  distance term of the feature block, whatever it held before, and the input buffer is as found.
-/
import proofs.«127717_j42193758716072_2_alg».proof.Proof.Gen.KernelIdeal.Launch
import proofs.«127717_j42193758716072_2_alg».proof.Proof.Gen.KernelIdeal.Skeleton
import proofs.«127717_j42193758716072_2_alg».proof.Proof.Gen.KernelIdeal.Points
import Idealize.ShloMosaic.Lib.Pipeline.FrameBody
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents on each core when a region is entered: every statement below is made at such contents. -/
variable (V : (c : Dev nD) → (b : Ref sig .tc) → Buf (Elt F) ((c : Thread nD τ).loc b))

/-! ## The windows' blocks -/

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over the entry contents whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The whole input block and the whole output block as rectangles. -/
abbrev rIn0 : Rect S512x256 := Rect.unit (s := S512x256) ![0, 0] S512x256.size inb_S512x256_S512x256_0_0
abbrev rOut0 : Rect S512x512 := Rect.unit (s := S512x512) ![0, 0] S512x512.size inb_S512x512_S512x512_0_0

/-- The output buffer after the body, from the input block: its one store, of the distance term. -/
def out0_1 (x0 : Vec F S512x256 .f32) : Vec F S512x512 .f32 :=
  View.canon [⟨rOut0, k0_pay1 (View.ld x0 rIn0)⟩]

/-- The one store covers the buffer. -/
theorem cover0_1 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

/-! ## The body's triple -/

set_option maxHeartbeats 1000000 in
/-- The body on whole staging memrefs, the input's at read contents `x0` and the output's at anything, runs to the
    continuation holding the input's as it was and the output's at `out0_1 x0`. -/
theorem sound_kernel0 (c : Dev nD) (E : Set ℕ) (i : grid0.Coords) (arg1 : Memref sig .tc .vmem S512x256 .f32) (harg1 : arg1.IsWhole)
    (arg2 : Memref sig .tc .vmem S512x512 .f32) (harg2 : arg2.IsWhole)
    (x0 : Vec F S512x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pdist_kernel i arg1 harg1 arg2 harg2) K := by
  simp only [cc0__pdist_kernel_eq_skeleton]; unfold cc0__pdist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the distance pipeline on core `c`: the arrays at the entry contents; after the body the input's
    buffer at its block and the output's at the distance term of that block; the invariant is the scoped buffers no window
    stages and the random-number register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any point: the input's memref holds its block, the triple applies, the invariant and the core's dues pass
    through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.KI.Reg1.lean ====
/-
  The triplet-sum kernel's region (a grid of 8 × 4 × 4 = 128 points): what its body leaves point by point, and the
  pipeline's proof data.

  At every point the body reads four 64×128 blocks — a block of distances for (anchor, positive), one for (anchor,
  negative), and the matching blocks of the two masks — and the 1×1 output buffer, and stores back the buffer's value
  plus the block's sum. At the first point only it first stores zero into the buffer. The buffer is written back to
  its array only after the last point, so between points it keeps what the body left: a running sum over the points.
  Two of the four input windows read one and the same array (the distance matrix), each holding half of it.
-/
import proofs.«127717_j42193758716072_2_alg».proof.Proof.Gen.KernelIdeal.Launch
import proofs.«127717_j42193758716072_2_alg».proof.Proof.Gen.KernelIdeal.Skeleton
import proofs.«127717_j42193758716072_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents on each core when a region is entered: every statement below is made at such contents. -/
variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (an unfetched window's block
    index has not moved), for any proof data over the entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The first-point condition -/

/-- The body's one branch condition, from the grid coordinates: all three are zero. -/
abbrev cond1 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) : BitVec 32) 0#32) = 1#1
/-- It holds at the first point only — decided over the grid. -/
theorem hcond1 : ∀ t : Fin cfg1.N, cond1 (grid1.coords t) ↔ t.val % 128 = 0 :=
  (by decide +kernel : ∀ t : Fin grid1.N, cond1 (grid1.coords t) ↔ t.val % 128 = 0)

/-- One staging buffer of the output window, through which its contents are stated. -/
abbrev VO1_4 : View sig .tc .vmem S1x1 .f32 := (Memref.whole cc1_stg4_0 : Memref sig .tc .vmem S1x1 .f32).view
/-- Each window's current staging memref at point `t`, as the pipeline passes it, and its wholeness. -/
abbrev ms1_0 (t : Fin cfg1.N) : Memref sig .tc .vmem S64x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-! ## The body's triple, case by case -/

set_option maxHeartbeats 2000000 in
/-- At the first point (the condition holds): the output buffer may hold anything; the stores the body makes into it are
    the witness the run finds. -/
noncomputable def kernelRun1_A (c : Dev nD) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : cond1 i)
    (x0 : Vec F S64x128 .f32) (x1 : Vec F S64x128 .f32) (x2 : Vec F S64x128 .f32) (x3 : Vec F S64x128 .f32) :
    { L4 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc1__triplet_kernel i arg3 harg3 arg4 harg4 arg5 harg5 arg6 harg6 arg7 harg7) K } := by
  refine ⟨?_, fun E K => ?run⟩
  case run =>
    simp only [cc1__triplet_kernel_eq_skeleton]; unfold cc1__triplet_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

set_option maxHeartbeats 2000000 in
/-- At every other point (the condition fails): the output buffer holds the running contents `xo`, which the body reads
    before storing over them. -/
noncomputable def kernelRun1_B (c : Dev nD) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : ¬cond1 i)
    (x0 : Vec F S64x128 .f32) (x1 : Vec F S64x128 .f32) (x2 : Vec F S64x128 .f32) (x3 : Vec F S64x128 .f32) (xo : Vec F S1x1 .f32) :
    { L4 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc1__triplet_kernel i arg3 harg3 arg4 harg4 arg5 harg5 arg6 harg6 arg7 harg7) K } := by
  refine ⟨?_, fun E K => ?run⟩
  case run =>
    simp only [cc1__triplet_kernel_eq_skeleton]; unfold cc1__triplet_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-! ## What each case leaves in the output buffer -/

theorem cover1_A (c : Dev nD) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : cond1 i) (x0 : Vec F S64x128 .f32) (x1 : Vec F S64x128 .f32) (x2 : Vec F S64x128 .f32) (x3 : Vec F S64x128 .f32) (y : S1x1.Idx) :
    ∃ pc ∈ (kernelRun1_A c i arg3 harg3 arg4 harg4 arg5 harg5 arg6 harg6 arg7 harg7 hc0 x0 x1 x2 x3).1, y ∈ pc.1.set :=
  View.cover_of_tiledL (kernelRun1_A c i arg3 harg3 arg4 harg4 arg5 harg5 arg6 harg6 arg7 harg7 hc0 x0 x1 x2 x3).1 S1x1.size (by sl_kernel_rfl) y

/-- What the first point leaves in the output buffer: its stores read back. -/
def out1_A (c : Dev nD) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : cond1 i) (x0 : Vec F S64x128 .f32) (x1 : Vec F S64x128 .f32) (x2 : Vec F S64x128 .f32) (x3 : Vec F S64x128 .f32) : Vec F S1x1 .f32 :=
  VO1_4.read (Elt F) (VO1_4.writes (Elt F) VO1_4.junk (kernelRun1_A c i arg3 harg3 arg4 harg4 arg5 harg5 arg6 harg6 arg7 harg7 hc0 x0 x1 x2 x3).1)

theorem cover1_B (c : Dev nD) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : ¬cond1 i) (x0 : Vec F S64x128 .f32) (x1 : Vec F S64x128 .f32) (x2 : Vec F S64x128 .f32) (x3 : Vec F S64x128 .f32) (xo : Vec F S1x1 .f32) (y : S1x1.Idx) :
    ∃ pc ∈ (kernelRun1_B c i arg3 harg3 arg4 harg4 arg5 harg5 arg6 harg6 arg7 harg7 hc0 x0 x1 x2 x3 xo).1, y ∈ pc.1.set :=
  View.cover_of_tiledL (kernelRun1_B c i arg3 harg3 arg4 harg4 arg5 harg5 arg6 harg6 arg7 harg7 hc0 x0 x1 x2 x3 xo).1 S1x1.size (by sl_kernel_rfl) y

/-- What a later point leaves in the output buffer, over the running contents it found. -/
def out1_B (c : Dev nD) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : ¬cond1 i) (x0 : Vec F S64x128 .f32) (x1 : Vec F S64x128 .f32) (x2 : Vec F S64x128 .f32) (x3 : Vec F S64x128 .f32) (xo : Vec F S1x1 .f32) : Vec F S1x1 .f32 :=
  VO1_4.read (Elt F) (VO1_4.writes (Elt F) VO1_4.junk (kernelRun1_B c i arg3 harg3 arg4 harg4 arg5 harg5 arg6 harg6 arg7 harg7 hc0 x0 x1 x2 x3 xo).1)

/-! ## The running contents, point by point -/

/-- What the output's staging buffer holds after the body at position `n`: the first point's contents at `0`, and at
    `n + 1` the later-point contents over what position `n` left (the buffer is not written back in between). -/
def outsAt1 (c : Dev nD) : (n : ℕ) → n < cfg1.N → Vec F S1x1 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 128 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

theorem outsAt1_A (c : Dev nD) (t : Fin cfg1.N) (h0 : t.val % 128 = 0) :
    outsAt1 V c t.val t.isLt = out1_A c (grid1.coords t) (ms1_0 t) (hs1_0 t) (ms1_1 t) (hs1_1 t) (ms1_2 t) (hs1_2 t) (ms1_3 t) (hs1_3 t) (ms1_4 t) (hs1_4 t) ((hcond1 t).mpr h0) (iblk1 V c 0 t) (iblk1 V c 1 t) (iblk1 V c 2 t) (iblk1 V c 3 t) := by
  obtain ⟨n, hn⟩ := t
  cases n with
  | zero => exact rfl
  | succ n => exact (dif_pos h0).trans rfl

theorem outsAt1_B (c : Dev nD) (t : Fin cfg1.N) (h0 : ¬t.val % 128 = 0) :
    outsAt1 V c t.val t.isLt = out1_B c (grid1.coords t) (ms1_0 t) (hs1_0 t) (ms1_1 t) (hs1_1 t) (ms1_2 t) (hs1_2 t) (ms1_3 t) (hs1_3 t) (ms1_4 t) (hs1_4 t) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the triplet-sum pipeline on core `c`: the arrays at the entry contents; after the body each input's
    buffer at its block and the output's at the running contents; the invariant is the scoped buffers no window stages and
    the random-number register; nothing owed; the two windows on the distance matrix hold complementary halves of it, the
    mask windows their arrays whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point the output's staging buffer holds what the body left at the point before: the buffer is written back
    only after the last point. -/
theorem before1_4_B (c : Dev nD) (t : Fin cfg1.N) (h0 : ¬t.val % 128 = 0) (d) :
    (dat1 V c).before 4 t d = outsAt1 V c (t.val - 1) (Nat.lt_of_le_of_lt (Nat.sub_le _ _) t.isLt) := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the closed form says which case the point is in; at a
    later point the output's buffer holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 128 = 0
  · rw [outsAt1_A V c t h0]
    unfold out1_A
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A c _ _ _ _ _ _ _ _ _ _ _ _ _ _ _ _)
  · rw [outsAt1_B V c t h0]
    simp only [before1_4_B V c t h0]
    unfold out1_B
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.KI.Segs0.lean ====
/-
  The program's two regions as segments of its run: the contents of the buffers between items, the proof data of both
  pipelines at their entry contents, and the distance region's record.

  Between two items of the program a core holds every unscoped buffer whole, at known contents, beside its random-number
  register at some state and the fact that it owes nothing. A region takes its windows' arrays out of those buffers at
  entry and puts them back at exit, the output's array at what the write-backs left.
-/
import proofs.«127717_j42193758716072_2_alg».proof.Proof.KI.Reg0
import proofs.«127717_j42193758716072_2_alg».proof.Proof.KI.Reg1
import proofs.«127717_j42193758716072_2_alg».proof.Proof.Gen.KernelIdeal.Regions
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between items -/

/-- At launch (the distance region's entry), read at the TensorCore's references. -/
abbrev VV0 : (c : Dev nD) → (b : Ref sig .tc) → Buf (Elt F) ((c : Thread nD τ).loc b) := fun c b => Gen.V0 m c b

/-- What the distance region leaves in its output array: what the pipeline's write-backs fold to. -/
def o1 (c : Dev nD) : Buf (Elt F) ((c : Thread nD τ).loc main_v0) := (dat0 (VV0 m) c).arrAt 1 cfg0.N

/-- After the distance region, and after the host operations that follow it (the triplet region's entry). -/
abbrev U1 (c : Dev nD) : Valuation τ sig (Elt F) := Function.update (Gen.V0 m c) main_v0 (o1 m c)
abbrev U2 (c : Dev nD) : Valuation τ sig (Elt F) := StableHlo.after hostOps1 (U1 m c)
abbrev VV2 : (c : Dev nD) → (b : Ref sig .tc) → Buf (Elt F) ((c : Thread nD τ).loc b) := fun c b => U2 m c b

/-- What the triplet region leaves in its output array. -/
def o3 (c : Dev nD) : Buf (Elt F) ((c : Thread nD τ).loc main_v20) := (dat1 (VV2 m) c).arrAt 4 cfg1.N

/-- What the regions leave, as one family: the distance matrix in `main_v0`, the sum in `main_v20`. -/
def outs : Gen.Outs (F := F) := fun _ r c =>
  if h : r = main_v0 then h ▸ o1 m c else if h' : r = main_v20 then h' ▸ o3 m c else m ((c : Thread nD τ).loc r)

theorem outs_v0 (j : ℕ) (c : Dev nD) : outs m j main_v0 c = o1 m c := by
  unfold outs; rw [dif_pos rfl]
theorem outs_v20 (j : ℕ) (c : Dev nD) : outs m j main_v20 c = o3 m c := by
  unfold outs; rw [dif_neg (by decide), dif_pos rfl]

theorem V1_eq (c : Dev nD) : Gen.V1 m (outs m) c = U1 m c := by
  unfold Gen.V1 U1; rw [outs_v0]
theorem V2_eq (c : Dev nD) : Gen.V2 m (outs m) c = U2 m c := by
  unfold Gen.V2 U2; rw [V1_eq]
theorem V3_eq (c : Dev nD) : Gen.V3 m (outs m) c = Function.update (U2 m c) main_v20 (o3 m c) := by
  unfold Gen.V3; rw [V2_eq, outs_v20]

/-! ## The proof data family and the rest state -/

/-- Both pipelines' proof data, each at its region's entry contents. -/
def pdats : (p : Fin 2) → (c : Dev nD) → Dat τ (Elt F) Unit ℕ (UR sig nD τ) ℕ (cfgs p) c
  | ⟨0, _⟩ => fun c => dat0 (VV0 m) c
  | ⟨1, _⟩ => fun c => dat1 (VV2 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's random-number register at some state, and its dues, none. -/
abbrev R (c : Dev nD) : sProp 𝕄 := iprop((∃ r, prngReg c r) ∗ ∃ W, owes (c : Thread nD τ) (0 : CellTallies nD τ sig Unit) W)

/-! ## The distance region -/

/-- At the distance region's exit its arrays hold what the pipeline leaves: the feature array as entered, the output
    array the write-back. -/
theorem hF0 (c : Dev nD) (w : Fin cfg0.W) : (pdats m 0 c).arrAt w cfg0.N = (fun b : Ref sig .tc => Gen.V1 m (outs m) c b) (Pipeline.arrRef spec0 w) := by
  rw [V1_eq]
  match w with
  | ⟨0, _⟩ =>
    refine ((pdats m 0 c).arrAt_in 0 rfl _).trans ?_
    exact (A_eq0 (VV0 m) c 0).trans (Function.update_of_ne (StableHlo.devRef_ne_of_ne (by decide)) _ _).symm
  | ⟨1, _⟩ => exact (Function.update_self (f := Gen.V0 m c) (Proc.devRef .tc main_v0) (o1 m c)).symm

theorem hrest0 (c : Dev nD) : ∀ b : Ref sig .tc, b ∉ Finset.univ.image (Pipeline.arrRef spec0) →
    (fun b : Ref sig .tc => Gen.V1 m (outs m) c b) b = VV0 m c b := fun b hb =>
  Gen.V1_of m (outs m) c b (fun h => hb (Finset.mem_image.mpr ⟨1, Finset.mem_univ _, (List.mem_singleton.mp h).symm⟩))

set_option backward.isDefEq.respectTransparency.types false in
/-- The distance region over the thread state: entered from every unscoped buffer at the launch contents, left with the
    output array at the write-back. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VV0 m c) (fun b : Ref sig .tc => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KI.Segs1.lean ====
/-
  The triplet-sum region's record. Two of its input windows read one array, the distance matrix: at entry the core's
  holding of that array is split in two halves, one per window, and at exit the halves — both still at the entry
  contents, as inputs are — are joined again. The other three arrays (the two masks, the output) are held whole.
-/
import proofs.«127717_j42193758716072_2_alg».proof.Proof.KI.Segs0

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The four buffers behind the five windows -/

/-- The distinct arrays of the region's windows. -/
def arr4 : Fin 4 → Ref sig .tc := ![main_v0, main_v13, main_v15, main_v20]
theorem arr4_inj : Function.Injective arr4 := by decide
theorem image_arrRef1 : Finset.univ.image (Pipeline.arrRef spec1) = Finset.univ.map ⟨arr4, arr4_inj⟩ := by decide

theorem bigSep_4 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- The buffers behind the windows' arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v13) ↦{fullShare} V main_v13)
          ∗ (((c : Thread nD τ).loc main_v15) ↦{fullShare} V main_v15) ∗ (((c : Thread nD τ).loc main_v20) ↦{fullShare} V main_v20)) := by
  unfold Pipeline.arrBufs
  rw [image_arrRef1, bigSep_map, bigSep_4]
  rfl

/-- The proof data's arrays, window by window: the distance matrix twice, at complementary halves. -/
theorem arrays1_eq (c : Dev nD) (A : (w : Fin cfg1.W) → Buf (Elt F) ((cfg1.win w).arr.view.loc (c : Thread nD τ))) :
    ((pdats m 1 c).arrays A : sProp 𝕄)
      = iprop((((c : Thread nD τ).loc main_v0) ↦{fullShare.left} A 0) ∗ (((c : Thread nD τ).loc main_v0) ↦{fullShare.right} A 1)
          ∗ (((c : Thread nD τ).loc main_v13) ↦{fullShare} A 2) ∗ (((c : Thread nD τ).loc main_v15) ↦{fullShare} A 3)
          ∗ (((c : Thread nD τ).loc main_v20) ↦{fullShare} A 4)) := by
  unfold Pipeline.Dat.arrays
  rw [bigSep_W1]
  have h0 : ((cfgs 1).win 0).arr.view.set = Finset.univ := (arr_whole1 0).set_eq_univ
  have h1 : ((cfgs 1).win 1).arr.view.set = Finset.univ := (arr_whole1 1).set_eq_univ
  have h2 : ((cfgs 1).win 2).arr.view.set = Finset.univ := (arr_whole1 2).set_eq_univ
  have h3 : ((cfgs 1).win 3).arr.view.set = Finset.univ := (arr_whole1 3).set_eq_univ
  have h4 : ((cfgs 1).win 4).arr.view.set = Finset.univ := (arr_whole1 4).set_eq_univ
  rw [h0, h1, h2, h3, h4]
  rfl

/-- ENTRY: the four buffers at the entry contents make the proof data's arrays there. -/
theorem arrays1_of_bufs (c : Dev nD) :
    (Pipeline.arrBufs (Ix := Unit) (Name := ℕ) (U := UR sig nD τ) (Lvl := ℕ) spec1 c (VV2 m c) : sProp 𝕄)
      ⊢ (pdats m 1 c).arrays ((pdats m 1 c).arrAt · 0) := by
  rw [arrBufs1_eq, arrays1_eq]
  iintro ⟨H0, H13, H15, H20⟩
  ihave Hs := (pointsTo_share (PosShare.mem_left_op_right fullShare)).1 $$ H0
  icases Hs with ⟨Hl, Hr⟩
  isplitl [Hl]; · iexact Hl
  isplitl [Hr]; · iexact Hr
  isplitl [H13]; · iexact H13
  isplitl [H15]; · iexact H15
  iexact H20

/-- At the region's exit the four input windows' arrays are as entered. -/
theorem arrAt1_in (c : Dev nD) (w : Fin cfg1.W) (hw : (cfg1.win w).isOut = false) :
    (pdats m 1 c).arrAt w cfg1.N = VV2 m c (Pipeline.arrRef spec1 w) :=
  ((pdats m 1 c).arrAt_in w hw _).trans (A_eq1 (VV2 m) c w)

/-- EXIT: the proof data's arrays at their final contents make the four buffers at the contents updated at the output's
    array. -/
theorem bufs_of_arrays1 (c : Dev nD) :
    ((pdats m 1 c).arrays ((pdats m 1 c).arrAt · cfg1.N) : sProp 𝕄)
      ⊢ Pipeline.arrBufs (Ix := Unit) (Name := ℕ) (U := UR sig nD τ) (Lvl := ℕ) spec1 c (fun b : Ref sig .tc => Gen.V3 m (outs m) c b) := by
  rw [arrBufs1_eq, arrays1_eq, V3_eq]
  rw [arrAt1_in m c 0 rfl, arrAt1_in m c 1 rfl, arrAt1_in m c 2 rfl, arrAt1_in m c 3 rfl]
  rw [show (Function.update (U2 m c) (Proc.devRef .tc main_v20) (o3 m c)) (Proc.devRef .tc main_v0) = U2 m c (Proc.devRef .tc main_v0) from Function.update_of_ne (StableHlo.devRef_ne_of_ne (by decide)) _ _,
    show (Function.update (U2 m c) (Proc.devRef .tc main_v20) (o3 m c)) (Proc.devRef .tc main_v13) = U2 m c (Proc.devRef .tc main_v13) from Function.update_of_ne (StableHlo.devRef_ne_of_ne (by decide)) _ _,
    show (Function.update (U2 m c) (Proc.devRef .tc main_v20) (o3 m c)) (Proc.devRef .tc main_v15) = U2 m c (Proc.devRef .tc main_v15) from Function.update_of_ne (StableHlo.devRef_ne_of_ne (by decide)) _ _,
    show (Function.update (U2 m c) (Proc.devRef .tc main_v20) (o3 m c)) (Proc.devRef .tc main_v20) = o3 m c from Function.update_self _ _ _]
  iintro ⟨Hl, Hr, H13, H15, H20⟩
  isplitl [Hl Hr]
  · iapply (pointsTo_share (PosShare.mem_left_op_right fullShare)).2
    isplitl [Hl]; · iexact Hl
    iexact Hr
  isplitl [H13]; · iexact H13
  isplitl [H15]; · iexact H15
  iexact H20

/-- Off the region's arrays nothing changes across it. -/
theorem rest1_eq (c : Dev nD) :
    (Pipeline.unscopedRest (Ix := Unit) (Name := ℕ) (U := UR sig nD τ) (Lvl := ℕ) spec1 c (VV2 m c) : sProp 𝕄)
      = Pipeline.unscopedRest spec1 c (fun b : Ref sig .tc => Gen.V3 m (outs m) c b) := by
  unfold Pipeline.unscopedRest
  refine bigSep_congr fun b hb => ?_
  have hb' : b ∉ Finset.univ.image (Pipeline.arrRef spec1) := (Finset.mem_sdiff.mp hb).2
  have hne : b ≠ main_v20 := fun e => hb' (Finset.mem_image.mpr ⟨4, Finset.mem_univ _, e.symm⟩)
  rw [show (fun b : Ref sig .tc => Gen.V3 m (outs m) c b) b = VV2 m c b from by
    show Gen.V3 m (outs m) c b = U2 m c b
    rw [V3_eq]; exact Function.update_of_ne (StableHlo.devRef_ne_of_ne hne) _ _]

set_option backward.isDefEq.respectTransparency.types false in
/-- The triplet-sum region over the thread state: entered from every unscoped buffer at the contents the host operations
    left, left with the output array at the running sum's last value. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none, V2_eq]
    have hsplit := Pipeline.unscopedBufs_split₀ (cfgs := cfgs) (p := 1) (Ix := Unit) (Name := ℕ) (U := UR sig nD τ) (Lvl := ℕ) (Val := Elt F) winFacts₀1.arr_unscoped c (VV2 m c)
    rw [Pipeline.unscopedBufs_held] at hsplit
    iintro ⟨⟨Hub, Hp, HO⟩, -, -⟩
    ihave H := (Entails.of_eq hsplit) $$ Hub
    icases H with ⟨Hb, Hrest⟩
    ihave Ha := (arrays1_of_bufs m c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit := Pipeline.unscopedBufs_split₀ (cfgs := cfgs) (p := 1) (Ix := Unit) (Name := ℕ) (U := UR sig nD τ) (Lvl := ℕ) (Val := Elt F) winFacts₀1.arr_unscoped c (fun b : Ref sig .tc => Gen.V3 m (outs m) c b)
    rw [Pipeline.unscopedBufs_held] at hsplit
    iintro ⟨Ha, HO, HY, Hrest⟩
    ihave Hb := (bufs_of_arrays1 m c) $$ Ha
    ihave Hrest' := (Entails.of_eq (rest1_eq m c)) $$ Hrest
    imodintro
    isplitl [Hb Hrest']
    · iapply (Entails.of_eq hsplit.symm); isplitl [Hb] <;> iassumption
    isplitl [HY]; · iexact HY
    unfold Pipeline.Dat.owesAt Pipeline.owesWithin
    icases HO with ⟨%W, -, HO⟩; iexists W; iexact HO

end Cert.KernelIdeal.Run

end
-- ==== Proof.KI.RunMain.lean ====
/-
  The program's run: from any memory, every weakly fair execution terminates without a fault, the three arguments end
  as launched, and the result buffer ends at the last item's contents — the sum the triplet region left, reshaped, over
  the count the host operations computed.

  The run is the library's launch over the four items (distance region, host operations, triplet region, host
  operations): the thread state between items is every unscoped buffer at known contents beside the random-number register
  and empty dues; consecutive items' states agree as written; the launch makes the first one; the last one, read
  against the final memory, gives each buffer's final contents.
-/
import proofs.«127717_j42193758716072_2_alg».proof.Proof.KI.Segs1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg)

variable (m : (ℓ : Loc nD τ sig) → Buf (Elt F) ℓ)

/-- The rest state at every boundary. -/
abbrev E : Fin 3 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, with the result named. -/
theorem run_main (ρ : Dev nD → PrngReg) :
    θ_run defs (onTc (τ := τ) (main (F := F))) ⟨m, fun _ => 0, ρ⟩ (fun r => ∀ c : Dev nD,
      r.2.mem ((c.tc : Thread nD τ).loc main_v22) = Gen.V4 m (outs m) c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Seg.run_eq_chain,
        show (Gen.segs m (outs m) 𝒱₀ L lv E () (pdats m) (reg0 m) (reg1 m) c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, .rfl, .rfl, sep_mono .rfl (by iintro ⟨-, HO⟩; iexact HO)⟩)
    (hinit := ?_)
    (QY := fun c s => s.mem ((c.tc : Thread nD τ).loc main_v22) = Gen.V4 m (outs m) c main_v22
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨h (Proc.devRef .tc main_v22) (mem_uc main_v22 (by decide)),
        (h (Proc.devRef .tc main_arg0) (mem_uc main_arg0 (by decide))).trans (Gen.V4_main_arg0 m (outs m) c),
        (h (Proc.devRef .tc main_arg1) (mem_uc main_arg1 (by decide))).trans (Gen.V4_main_arg1 m (outs m) c),
        (h (Proc.devRef .tc main_arg2) (mem_uc main_arg2 (by decide))).trans (Gen.V4_main_arg2 m (outs m) c)⟩
    · iexact HSI

/-- THE FRAME: every execution terminates without a fault and the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Run

end
-- ==== Proof.KI.Value.lean ====
/-
  What the two regions leave in their output arrays, as closed terms.

  The distance region's grid is one point and both its blocks are whole arrays: the output array ends holding the
  distance term of the whole feature array. The triplet region writes its 1×1 output back once, after the last point:
  the output array ends holding the running contents after point 127.
-/
import proofs.«127717_j42193758716072_2_alg».proof.Proof.KI.Reg0
import proofs.«127717_j42193758716072_2_alg».proof.Proof.KI.Reg1
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents on each core when a region is entered: every statement below is made at such contents. -/
variable (V : (c : Dev nD) → (b : Ref sig .tc) → Buf (Elt F) ((c : Thread nD τ).loc b))

theorem hz2 : (![0, 0] : Fin 2 → Nat) = fun _ => 0 := funext fun a => by fin_cases a <;> rfl

/-! ## The distance region -/

/-- The one store, through the whole block, of the payload loaded through the whole block: the payload itself. -/
theorem out0_1_eq (x0 : Vec F S512x256 .f32) : out0_1 (F := F) x0 = k0_pay1 x0 := by
  unfold out0_1
  rw [View.canon_unit_zero hz2]
  simp only [View.ld_unit_zero (S := S512x256) hz2]

/-- The block indices of both windows are zero at the one point. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input window's block is the whole feature array. -/
theorem iblk0_0_eq (c : Dev nD) (t : Fin cfg0.N) : iblk0 V c 0 t = V c main_arg0 := by
  obtain ⟨e0, e1, -, -⟩ := idx_facts0 t
  funext j
  show V c main_arg0 (((cfg0.win 0).blk t).view.emb j) = V c main_arg0 j
  refine congrArg _ ?_
  funext a; apply Fin.ext
  match a with
  | ⟨0, _⟩ => show win0_0.index t (0 : Fin 2) * 512 + 1 * (j 0).val = (j 0).val; omega
  | ⟨1, _⟩ => show win0_0.index t (1 : Fin 2) * 256 + 1 * (j 1).val = (j 1).val; omega

/-- What the point writes back is its block — the whole — of the distance term of the feature array. -/
theorem flushed0_eq (c : Dev nD) (t : Fin cfg0.N) :
    (dat0 V c).flushed 1 t = ((cfg0.win 1).blk t).view.read (Elt F) (k0_pay1 (V c main_arg0)) := by
  show (cfg0.win 1).cut (grid0.coords t) ((dat0 V c).after 1 t) = _
  rw [after0_1, out0_1_eq, iblk0_0_eq]
  obtain ⟨-, -, e0, e1⟩ := idx_facts0 t
  funext j
  show k0_pay1 (V c main_arg0) j = k0_pay1 (V c main_arg0) (((cfg0.win 1).blk t).view.emb j)
  refine congrArg _ ?_
  funext a; apply Fin.ext
  match a with
  | ⟨0, _⟩ => show (j 0).val = win0_1.index t (0 : Fin 2) * 512 + 1 * (j 0).val; omega
  | ⟨1, _⟩ => show (j 1).val = win0_1.index t (1 : Fin 2) * 512 + 1 * (j 1).val; omega

theorem mem_blk0_1 (t : Fin cfg0.N) (i : S512x512.Idx) :
    i ∈ ((cfg0.win 1).blk t).view.set ↔ ∀ a : Fin 2, win0_1.index t a * S512x512.size a ≤ (i a).val ∧ (i a).val < win0_1.index t a * S512x512.size a + S512x512.size a := by
  show i ∈ ((View.whole main_v0).slice (win0_1.rect t)).set ↔ _
  rw [View.set_slice_whole, Rect.mem_set_unit]
  exact Iff.rfl

/-- THE DISTANCE ARRAY after the region: the distance term of the feature array as entered. -/
theorem final0 (c : Dev nD) : (dat0 V c).arrAt 1 cfg0.N = k0_pay1 (V c main_arg0) :=
  (dat0 V c).arrAt_eq_of_cover 1 _ (fun t _ => flushed0_eq V c t) fun i => by
    refine ⟨t0_0, flush0_1 t0_0, ?_⟩
    rw [mem_blk0_1]
    obtain ⟨-, -, e0, e1⟩ := idx_facts0 t0_0
    intro a
    match a with
    | ⟨0, _⟩ => show win0_1.index t0_0 (0 : Fin 2) * 512 ≤ (i 0).val ∧ (i 0).val < win0_1.index t0_0 (0 : Fin 2) * 512 + 512; have hi : (i 0).val < 512 := (i 0).isLt; omega
    | ⟨1, _⟩ => show win0_1.index t0_0 (1 : Fin 2) * 512 ≤ (i 1).val ∧ (i 1).val < win0_1.index t0_0 (1 : Fin 2) * 512 + 512; have hi : (i 1).val < 512 := (i 1).isLt; omega

/-! ## The triplet region -/

/-- The last point. -/
def tLast : Fin cfg1.N := ⟨127, by show 127 < grid1.N; rw [N_1]; decide⟩

/-- The output window's block index is zero at every point. -/
theorem idx_facts1_4 : ∀ t : Fin cfg1.N, win1_4.index t (0 : Fin 2) = 0 ∧ win1_4.index t (1 : Fin 2) = 0 :=
  (by decide +kernel : ∀ t : Fin grid1.N, _)

/-- What the one write-back writes is its block — the whole 1×1 array — of the running contents after the last point. -/
theorem flushed1_eq (c : Dev nD) (t : Fin cfg1.N) (hf : (cfg1.win 4).flush t = true) :
    (dat1 V c).flushed 4 t = ((cfg1.win 4).blk t).view.read (Elt F) (outsAt1 V c tLast.val tLast.isLt) := by
  have ht : t = tLast := by
    have h := (flush1_4 t).mp hf
    have hN : t.val < 128 := lt_of_lt_of_eq t.isLt (show cfg1.N = 128 from N_1)
    apply Fin.ext; show t.val = 127; omega
  subst ht
  show (cfg1.win 4).cut (grid1.coords tLast) ((dat1 V c).after 4 tLast) = _
  rw [after1_4]
  obtain ⟨e0, e1⟩ := idx_facts1_4 tLast
  funext j
  show outsAt1 V c tLast.val tLast.isLt j = outsAt1 V c tLast.val tLast.isLt (((cfg1.win 4).blk tLast).view.emb j)
  refine congrArg _ ?_
  funext a; apply Fin.ext
  match a with
  | ⟨0, _⟩ => show (j 0).val = win1_4.index tLast (0 : Fin 2) * 1 + 1 * (j 0).val; omega
  | ⟨1, _⟩ => show (j 1).val = win1_4.index tLast (1 : Fin 2) * 1 + 1 * (j 1).val; omega

theorem mem_blk1_4 (t : Fin cfg1.N) (i : S1x1.Idx) :
    i ∈ ((cfg1.win 4).blk t).view.set ↔ ∀ a : Fin 2, win1_4.index t a * S1x1.size a ≤ (i a).val ∧ (i a).val < win1_4.index t a * S1x1.size a + S1x1.size a := by
  show i ∈ ((View.whole main_v20).slice (win1_4.rect t)).set ↔ _
  rw [View.set_slice_whole, Rect.mem_set_unit]
  exact Iff.rfl

/-- THE SUM ARRAY after the region: the running contents after the last point. -/
theorem final1 (c : Dev nD) : (dat1 V c).arrAt 4 cfg1.N = outsAt1 V c tLast.val tLast.isLt :=
  (dat1 V c).arrAt_eq_of_cover 4 _ (fun t hf => flushed1_eq V c t hf) fun i => by
    refine ⟨tLast, (flush1_4 tLast).mpr (by decide), ?_⟩
    rw [mem_blk1_4]
    obtain ⟨e0, e1⟩ := idx_facts1_4 tLast
    intro a
    match a with
    | ⟨0, _⟩ => show win1_4.index tLast (0 : Fin 2) * 1 ≤ (i 0).val ∧ (i 0).val < win1_4.index tLast (0 : Fin 2) * 1 + 1; have hi : (i 0).val < 1 := (i 0).isLt; omega
    | ⟨1, _⟩ => show win1_4.index tLast (1 : Fin 2) * 1 ≤ (i 1).val ∧ (i 1).val < win1_4.index tLast (1 : Fin 2) * 1 + 1; have hi : (i 1).val < 1 := (i 1).isLt; omega

/-! ## The triplet region's input blocks, read at an index -/

/-- The block indices of the four input windows in closed form: the anchor block is `t / 16`, the positive block
    `t / 4 % 4`, the negative block `t % 4`. -/
theorem idx_facts1 : ∀ t : Fin cfg1.N,
    win1_0.index t (0 : Fin 2) = t.val / 16 ∧ win1_0.index t (1 : Fin 2) = t.val / 4 % 4
    ∧ win1_1.index t (0 : Fin 2) = t.val / 16 ∧ win1_1.index t (1 : Fin 2) = t.val % 4
    ∧ win1_2.index t (0 : Fin 2) = t.val / 16 ∧ win1_2.index t (1 : Fin 2) = t.val / 4 % 4
    ∧ win1_3.index t (0 : Fin 2) = t.val / 16 ∧ win1_3.index t (1 : Fin 2) = t.val % 4 :=
  (by decide +kernel : ∀ t : Fin grid1.N, _)

/-- A block's entry is the array's entry at the block's offset plus the local coordinate. -/
theorem iblk1_0_apply (c : Dev nD) (t : Fin cfg1.N) (a : Fin 64) (p : Fin 128) (A : Fin 512) (Pp : Fin 512)
    (hA : A.val = 64 * (t.val / 16) + a.val) (hP : Pp.val = 128 * (t.val / 4 % 4) + p.val) :
    iblk1 V c 0 t (ValueIdx.ix2 a p) = V c main_v0 (ValueIdx.ix2 A Pp) := by
  obtain ⟨e0, e1, -⟩ := idx_facts1 t
  show V c main_v0 (((cfg1.win 0).blk t).view.emb (ValueIdx.ix2 a p)) = V c main_v0 (ValueIdx.ix2 A Pp)
  refine congrArg _ ?_
  funext d; apply Fin.ext
  match d with
  | ⟨0, _⟩ => show win1_0.index t (0 : Fin 2) * 64 + 1 * a.val = A.val; omega
  | ⟨1, _⟩ => show win1_0.index t (1 : Fin 2) * 128 + 1 * p.val = Pp.val; omega

theorem iblk1_1_apply (c : Dev nD) (t : Fin cfg1.N) (a : Fin 64) (n : Fin 128) (A : Fin 512) (Nn : Fin 512)
    (hA : A.val = 64 * (t.val / 16) + a.val) (hN : Nn.val = 128 * (t.val % 4) + n.val) :
    iblk1 V c 1 t (ValueIdx.ix2 a n) = V c main_v0 (ValueIdx.ix2 A Nn) := by
  obtain ⟨-, -, e0, e1, -⟩ := idx_facts1 t
  show V c main_v0 (((cfg1.win 1).blk t).view.emb (ValueIdx.ix2 a n)) = V c main_v0 (ValueIdx.ix2 A Nn)
  refine congrArg _ ?_
  funext d; apply Fin.ext
  match d with
  | ⟨0, _⟩ => show win1_1.index t (0 : Fin 2) * 64 + 1 * a.val = A.val; omega
  | ⟨1, _⟩ => show win1_1.index t (1 : Fin 2) * 128 + 1 * n.val = Nn.val; omega

theorem iblk1_2_apply (c : Dev nD) (t : Fin cfg1.N) (a : Fin 64) (p : Fin 128) (A : Fin 512) (Pp : Fin 512)
    (hA : A.val = 64 * (t.val / 16) + a.val) (hP : Pp.val = 128 * (t.val / 4 % 4) + p.val) :
    iblk1 V c 2 t (ValueIdx.ix2 a p) = V c main_v13 (ValueIdx.ix2 A Pp) := by
  obtain ⟨-, -, -, -, e0, e1, -⟩ := idx_facts1 t
  show V c main_v13 (((cfg1.win 2).blk t).view.emb (ValueIdx.ix2 a p)) = V c main_v13 (ValueIdx.ix2 A Pp)
  refine congrArg _ ?_
  funext d; apply Fin.ext
  match d with
  | ⟨0, _⟩ => show win1_2.index t (0 : Fin 2) * 64 + 1 * a.val = A.val; omega
  | ⟨1, _⟩ => show win1_2.index t (1 : Fin 2) * 128 + 1 * p.val = Pp.val; omega

theorem iblk1_3_apply (c : Dev nD) (t : Fin cfg1.N) (a : Fin 64) (n : Fin 128) (A : Fin 512) (Nn : Fin 512)
    (hA : A.val = 64 * (t.val / 16) + a.val) (hN : Nn.val = 128 * (t.val % 4) + n.val) :
    iblk1 V c 3 t (ValueIdx.ix2 a n) = V c main_v15 (ValueIdx.ix2 A Nn) := by
  obtain ⟨-, -, -, -, -, -, e0, e1⟩ := idx_facts1 t
  show V c main_v15 (((cfg1.win 3).blk t).view.emb (ValueIdx.ix2 a n)) = V c main_v15 (ValueIdx.ix2 A Nn)
  refine congrArg _ ?_
  funext d; apply Fin.ext
  match d with
  | ⟨0, _⟩ => show win1_3.index t (0 : Fin 2) * 64 + 1 * a.val = A.val; omega
  | ⟨1, _⟩ => show win1_3.index t (1 : Fin 2) * 128 + 1 * n.val = Nn.val; omega

end Cert.KernelIdeal.Run

end
-- ==== Proof.Spec.lean ====
/-
  The batch-all triplet loss as one function of its inputs.

  From the 512 feature rows (256 numbers each) comes the matrix of pairwise distances
  `dist f i j = sqrt (max (|f i|² + |f j|² - 2 (f i · f j)) eps)`.  Two tables of bits over pairs of rows say which
  pairs count: `P a p` (row `p` is a positive for anchor `a`: same label, another row) and `N a n` (row `n` is a
  negative for anchor `a`: another label).  A triple `(a, p, n)` contributes `logistic (10 (D a p - D a n))` when
  both bits are set and nothing otherwise; a bit read as the number 0 or 1 turns that into a product.  The loss is the
  sum over all 512³ triples divided by the number of triples that count, and that number factors anchor by anchor:
  (positives of `a`) times (negatives of `a`).

  Everything is over the extended reals; the three float constants are the values their f32 words denote.
-/
import Idealize.ShloMosaic.PureOps.Ideal
import Idealize.ShloMosaic.Lib.ValueIdx

noncomputable section

namespace Cert.Triplet

open Idealize.ShloMosaic

/-- The constants 2, 1e-12 (as f32) and 10, as the extended reals their f32 words denote. -/
def two : EReal := Ideal.ofBits .f32 0x40000000#32
def eps : EReal := Ideal.ofBits .f32 0x2B8CBCCC#32
def ten : EReal := Ideal.ofBits .f32 0x41200000#32

/-- A bit as the number 0 or 1. -/
def bitVal (b : BitVec 1) : EReal := ((b.toNat : ℝ) : EReal)

/-- The distance between rows `i` and `j`: from the two squared norms and the inner product, floored at `eps`
    before the square root. -/
def dist (f : Fin 512 → Fin 256 → EReal) (i j : Fin 512) : EReal :=
  Ideal.sqrt (max (((∑ k, f i k * f i k) + (∑ k, f j k * f j k)) - two * (∑ k, f i k * f j k)) eps)

/-- What the triple `(a, p, n)` contributes: the logistic of ten times the margin, times the two bits. -/
def term (D : Fin 512 → Fin 512 → EReal) (P N : Fin 512 → Fin 512 → BitVec 1) (a p n : Fin 512) : EReal :=
  Ideal.logistic (ten * (D a p - D a n)) * (bitVal (P a p) * bitVal (N a n))

/-- The sum over all triples. -/
def total (D : Fin 512 → Fin 512 → EReal) (P N : Fin 512 → Fin 512 → BitVec 1) : EReal :=
  ∑ a, ∑ p, ∑ n, term D P N a p n

/-- The number of triples that count, anchor by anchor: positives times negatives. -/
def count (P N : Fin 512 → Fin 512 → BitVec 1) : EReal :=
  ∑ a, (∑ p, bitVal (P a p)) * (∑ n, bitVal (N a n))

/-- The loss: the total over the count (the extended reals' quotient: by zero it is what `Ideal.div` says). -/
def loss (D : Fin 512 → Fin 512 → EReal) (P N : Fin 512 → Fin 512 → BitVec 1) : EReal :=
  Ideal.div (total D P N) (count P N)

end Cert.Triplet

end
-- ==== Proof.KerLayout.lean ====
/-
  Layout operations read at an index, at the unit-axis positions the two kernel bodies use: a trailing or a middle unit
  axis added by a shape cast, a column or a unit axis of a rank-3 array broadcast along it, and the index a one-axis
  reduction inserts, written by coordinates.  Each is the library's general lemma at one position.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Triplet.Ker

open Idealize.ShloMosaic Idealize.ShloMosaic.ValueIdx

variable {α : Type}

/-! ## A unit axis added by a shape cast -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A unit axis broadcast -/

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## The index a one-axis reduction inserts -/

/-- Reducing the last axis of a rank-3 array: over `(i, j)` the coordinate `k` goes last. -/
theorem lift3_axis2 {a b c : ℕ} (h : (⟨3, ![a, b, c]⟩ : Shape).Reduces [2] ⟨2, ![a, b]⟩) (i : Fin a) (j : Fin b) (k : Fin c) :
    h.lift (ix2 i j) k = ix3 i j k :=
  funext fun d => Fin.ext (by match d with | ⟨0, _⟩ => rfl | ⟨1, _⟩ => rfl | ⟨2, _⟩ => rfl)

/-- Reducing the last axis of a matrix: over `i` the coordinate `k` goes last. -/
theorem lift2_axis1 {a b : ℕ} (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Reducing the first axis of a matrix: over `j` the coordinate `k` goes first. -/
theorem lift2_axis0 {a b : ℕ} (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

end Cert.Triplet.Ker

end
-- ==== Proof.KerDist.lean ====
/-
  The distance kernel's stored value at `(i, j)` is the specification's distance between rows `i` and `j`.

  The body squares the features and sums each row from the zero word (the row's squared norm), keeps the norms as a
  column, transposes the column into a row, broadcasts both to 512 x 512 and adds them: at `(i, j)` that is the
  norm of row `i` plus the norm of row `j`.  The matrix product of the features with themselves, both contracted
  along the feature axis into a zero accumulator, is at `(i, j)` the inner product of rows `i` and `j` (the
  narrowing of the operands is the identity on extended reals).  Then two times the product is subtracted, the
  maximum with the small constant taken, and the square root.
-/
import proofs.«127717_j42193758716072_2_alg».proof.Proof.Gen.KernelIdeal.Skeleton
import proofs.«127717_j42193758716072_2_alg».proof.Proof.Spec
import proofs.«127717_j42193758716072_2_alg».proof.Proof.KerLayout

noncomputable section

namespace Cert.Triplet.Ker

open Idealize.ShloMosaic Idealize.ShloMosaic.ValueIdx Cert.KernelIdeal Cert.KernelIdeal.Gen

/-- A row's squared norm: the sum along the feature axis, from the zero word, of the squares. -/
theorem rowNorm_apply (v0 : Vec Ideal S512x256 .f32) (hφ : FKind.Formats .f32)
    (hacc : (0x00000000#32 : BitVec 32) = FKind.add.neutral .f32 hφ) (i : Fin 512) :
    multiReduction (F := Ideal) .add [1] S512 (mulf v0 v0) 0x00000000#32 reduces_S512x256_S512 hφ hacc (ix1 i)
      = ∑ k : Fin 256, v0 (ix2 i k) * v0 (ix2 i k) := by
  refine (Ideal.multiReduction_add_single _ _ reduces_S512x256_S512 _ _ (ix1 i)).trans ?_
  refine Finset.sum_congr rfl fun (k : Fin 256) _ => ?_
  rw [lift2_axis1 reduces_S512x256_S512 i k]
  rfl

/-- The non-contracted coordinate of the left operand's index is the output row. -/
theorem gram_lhs_0 (o : S512x512.Idx) (q : dot_S512x256_S512x256_S512x512_1_1_0_0_n_n.contr.Idx) :
    (dot_S512x256_S512x256_S512x512_1_1_0_0_n_n.lhsIdx o q 0).val = (o 0).val := by
  unfold DotDims.lhsIdx
  rw [dif_neg (show ¬(0 : Fin S512x256.rank) ∈ dot_S512x256_S512x256_S512x512_1_1_0_0_n_n.lhsBatch by decide),
    dif_pos (show (0 : Fin S512x256.rank) ∈ dot_S512x256_S512x256_S512x512_1_1_0_0_n_n.lhsNonContracting by decide)]
  rfl

/-- The non-contracted coordinate of the right operand's index is the output column. -/
theorem gram_rhs_0 (o : S512x512.Idx) (q : dot_S512x256_S512x256_S512x512_1_1_0_0_n_n.contr.Idx) :
    (dot_S512x256_S512x256_S512x512_1_1_0_0_n_n.rhsIdx o q 0).val = (o 1).val := by
  unfold DotDims.rhsIdx
  rw [dif_neg (show ¬(0 : Fin S512x256.rank) ∈ dot_S512x256_S512x256_S512x512_1_1_0_0_n_n.rhsBatch by decide),
    dif_pos (show (0 : Fin S512x256.rank) ∈ dot_S512x256_S512x256_S512x512_1_1_0_0_n_n.rhsNonContracting by decide)]
  rfl

/-- The product of the features with themselves, both contracted along the feature axis, into the zero accumulator:
    at `(i, j)` the inner product of rows `i` and `j`. -/
theorem gram_apply (x y : FVec Ideal S512x256 .bf16) (i j : Fin 512) :
    matmul dot_S512x256_S512x256_S512x512_1_1_0_0_n_n none x y (constant S512x512 .f32 0x00000000#32) (ix2 i j)
      = ∑ k : Fin 256, x (ix2 i k) * y (ix2 j k) := by
  simp only [matmul]
  rw [Ideal.matmul_constant_zero_apply,
    ← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 i j)
      ((contrEquiv1 dot_S512x256_S512x256_S512x512_1_1_0_0_n_n 256 rfl rfl).symm k) = ix2 i k := funext fun a => Fin.ext (by
    match a with
    | ⟨0, _⟩ => exact gram_lhs_0 _ _
    | ⟨1, _⟩ => exact (dot_S512x256_S512x256_S512x512_1_1_0_0_n_n.lhsIdx_val_of_single rfl _ _).trans hk)
  have er : dot_S512x256_S512x256_S512x512_1_1_0_0_n_n.rhsIdx (ix2 i j)
      ((contrEquiv1 dot_S512x256_S512x256_S512x512_1_1_0_0_n_n 256 rfl rfl).symm k) = ix2 j k := funext fun a => Fin.ext (by
    match a with
    | ⟨0, _⟩ => exact gram_rhs_0 _ _
    | ⟨1, _⟩ => exact (dot_S512x256_S512x256_S512x512_1_1_0_0_n_n.rhsIdx_val_of_single rfl _ _).trans hk)
  rw [el, er]

/-- The distance from its three sums: the two squared norms and the inner product, with the constants two and the small
    floor as the numbers their words denote. -/
theorem dist_assemble {Ni Nj G : EReal} {f : Fin 512 → Fin 256 → EReal} {i j : Fin 512}
    (hi : Ni = ∑ k, f i k * f i k) (hj : Nj = ∑ k, f j k * f j k) (hg : G = ∑ k, f i k * f j k) :
    Ideal.sqrt (max ((Ni + Nj) - Ideal.ofBits .f32 0x40000000#32 * G) (Ideal.ofBits .f32 0x2B8CBCCC#32)) = dist f i j := by
  subst hi hj hg
  rfl

/-- THE DISTANCE KERNEL'S VALUE at `(i, j)`: the specification's distance between rows `i` and `j` of the features. -/
theorem k0_pay1_apply (v0 : Vec Ideal S512x256 .f32) (i j : Fin 512) :
    k0_pay1 (F := Ideal) v0 (ix2 i j) = dist (fun i k => v0 (ix2 i k)) i j := by
  unfold k0_pay1
  dsimp only
  show Ideal.sqrt (max ((_ + _) - Ideal.ofBits .f32 0x40000000#32 * _) (Ideal.ofBits .f32 0x2B8CBCCC#32)) = _
  rw [broadcastTo_a1_ab_apply, broadcastTo_1b_ab_apply, transpose_ix2_apply, shapeCast_a_a1_apply, shapeCast_a_a1_apply]
  exact dist_assemble (rowNorm_apply v0 _ _ i) (rowNorm_apply v0 _ _ j) (gram_apply _ _ i j)

end Cert.Triplet.Ker

end
-- ==== Proof.KerBlock.lean ====
/-
  The accumulation kernel's two stored values read at their one index.

  The first is the zero the accumulator starts from.  The second is the running accumulator plus the sum, over the
  64 anchors, 128 positives and 128 negatives of a block, of the logistic of ten times the margin times the two mask
  values: the body forms the 64 x 128 x 128 array of those products (two shape casts and two broadcasts per operand put
  the positive on the middle axis and the negative on the last) and sums it axis by axis, last axis first, each time
  from the zero word.
-/
import proofs.«127717_j42193758716072_2_alg».proof.Proof.Gen.KernelIdeal.Skeleton
import proofs.«127717_j42193758716072_2_alg».proof.Proof.Spec
import proofs.«127717_j42193758716072_2_alg».proof.Proof.KerLayout

noncomputable section

namespace Cert.Triplet.Ker

open Idealize.ShloMosaic Idealize.ShloMosaic.ValueIdx Cert.KernelIdeal Cert.KernelIdeal.Gen

/-- The accumulator's first value is zero, at its one index (and so at any index). -/
theorem k1_pay1_apply (j : S1x1.Idx) : k1_pay1 (F := Ideal) j = 0 := by
  show Ideal.ofBits .f32 0x00000000#32 = 0
  exact Ideal.ofBits_zero_f32

/-- The array of products at `(a, p, n)`: the logistic of ten times (positive distance less negative distance), times
    the two mask values. -/
theorem prod_apply (v7 v9 v11 v13 : Vec Ideal S64x128 .f32) (a : Fin 64) (p n : Fin 128) :
    (mulf (logistic (mulf (broadcast S64x128x128 (Scalar.ofBits (F := Ideal) .f32 0x41200000#32))
        (subf (broadcastTo S64x128x128 (shapeCast S64x128x1 v7 shapeCasts_S64x128_S64x128x1) broadcasts_S64x128x1_S64x128x128)
          (broadcastTo S64x128x128 (shapeCast S64x1x128 v9 shapeCasts_S64x128_S64x1x128) broadcasts_S64x1x128_S64x128x128))))
      (mulf (broadcastTo S64x128x128 (shapeCast S64x128x1 v11 shapeCasts_S64x128_S64x128x1) broadcasts_S64x128x1_S64x128x128)
        (broadcastTo S64x128x128 (shapeCast S64x1x128 v13 shapeCasts_S64x128_S64x1x128) broadcasts_S64x1x128_S64x128x128))
      : FVec Ideal S64x128x128 .f32) (ix3 a p n)
      = Ideal.logistic (ten * (v7 (ix2 a p) - v9 (ix2 a n))) * (v11 (ix2 a p) * v13 (ix2 a n)) := by
  show Ideal.logistic (Ideal.ofBits .f32 0x41200000#32 *
      (broadcastTo S64x128x128 (shapeCast S64x128x1 v7 shapeCasts_S64x128_S64x128x1) broadcasts_S64x128x1_S64x128x128 (ix3 a p n)
        - broadcastTo S64x128x128 (shapeCast S64x1x128 v9 shapeCasts_S64x128_S64x1x128) broadcasts_S64x1x128_S64x128x128 (ix3 a p n)))
    * (broadcastTo S64x128x128 (shapeCast S64x128x1 v11 shapeCasts_S64x128_S64x128x1) broadcasts_S64x128x1_S64x128x128 (ix3 a p n)
        * broadcastTo S64x128x128 (shapeCast S64x1x128 v13 shapeCasts_S64x128_S64x1x128) broadcasts_S64x1x128_S64x128x128 (ix3 a p n)) = _
  rw [broadcastTo_ab1_abc_apply, broadcastTo_ab1_abc_apply, broadcastTo_a1c_abc_apply, broadcastTo_a1c_abc_apply,
    shapeCast_ab_ab1_apply, shapeCast_ab_ab1_apply, shapeCast_ab_a1b_apply, shapeCast_ab_a1b_apply]
  rfl

/-- THE BLOCK'S VALUE at the accumulator's one index: the running accumulator there plus the sum over the block's 64
    anchors, 128 positives and 128 negatives of the product above — the three reductions, last axis first, each the
    finite sum over its axis (the zero word they start from is the number zero and drops out). -/
theorem k1_pay2_apply (v7 v9 v11 v13 : Vec Ideal S64x128 .f32) (v34 : Vec Ideal S1x1 .f32) :
    k1_pay2 (F := Ideal) v7 v9 v11 v13 v34 (ix2 (0 : Fin 1) (0 : Fin 1))
      = v34 (ix2 (0 : Fin 1) (0 : Fin 1)) + ∑ a : Fin 64, ∑ p : Fin 128, ∑ n : Fin 128,
          Ideal.logistic (ten * (v7 (ix2 a p) - v9 (ix2 a n))) * (v11 (ix2 a p) * v13 (ix2 a n)) := by
  unfold k1_pay2
  simp only [shapeCast_self]
  refine (addf_apply _ _ _).trans (congrArg (v34 (ix2 (0 : Fin 1) (0 : Fin 1)) + ·) ?_)
  rw [shapeCast_a_1a_apply]
  refine (Ideal.multiReduction_add_single _ _ reduces_S64x1_S1 _ _ (ix1 (0 : Fin 1))).trans ?_
  refine Finset.sum_congr rfl fun (a : Fin 64) _ => ?_
  rw [lift2_axis0 reduces_S64x1_S1 (0 : Fin 1) a, shapeCast_a_a1_apply]
  refine (Ideal.multiReduction_add_single _ _ reduces_S64x128_S64 _ _ (ix1 a)).trans ?_
  refine Finset.sum_congr rfl fun (p : Fin 128) _ => ?_
  rw [lift2_axis1 reduces_S64x128_S64 a p]
  refine (Ideal.multiReduction_add_single _ _ reduces_S64x128x128_S64x128 _ _ (ix2 a p)).trans ?_
  refine Finset.sum_congr rfl fun (n : Fin 128) _ => ?_
  rw [lift3_axis2 reduces_S64x128x128_S64x128 a p n]
  exact prod_apply v7 v9 v11 v13 a p n

/-- The same at any index of the one-element shape. -/
theorem k1_pay2_apply' (v7 v9 v11 v13 : Vec Ideal S64x128 .f32) (v34 : Vec Ideal S1x1 .f32) (j : S1x1.Idx) :
    k1_pay2 (F := Ideal) v7 v9 v11 v13 v34 j
      = v34 j + ∑ a : Fin 64, ∑ p : Fin 128, ∑ n : Fin 128,
          Ideal.logistic (ten * (v7 (ix2 a p) - v9 (ix2 a n))) * (v11 (ix2 a p) * v13 (ix2 a n)) := by
  have e0 : j 0 = (0 : Fin 1) := Fin.ext (by have := idx2_lt0 j; show (j 0).val = 0; omega)
  have e1 : j 1 = (0 : Fin 1) := Fin.ext (by have := idx2_lt1 j; show (j 1).val = 0; omega)
  have hj : j = ix2 (0 : Fin 1) (0 : Fin 1) := by rw [eq_ix2 j, e0, e1]; rfl
  rw [hj]
  exact k1_pay2_apply v7 v9 v11 v13 v34

end Cert.Triplet.Ker

end
-- ==== Proof.KerSum.lean ====
/-
  The blockwise law: an accumulator that starts at zero and, at step `t` of 128, adds the sum of a function of three
  row numbers over one 64 x 128 x 128 block — rows `64 (t / 16) + a`, `128 (t / 4 % 4) + p`, `128 (t % 4) + n` — ends
  as the sum over all 512 x 512 x 512 triples.  The 128 steps are the 8 x 4 x 4 blocks in row-major order and each of
  the three row ranges is cut into its blocks; the extended reals are a commutative monoid under addition, so the
  regrouping needs no finiteness.  Then the summand with the two masks read as bits is the specification's term.
-/
import Mathlib.Algebra.BigOperators.Fin
import proofs.«127717_j42193758716072_2_alg».proof.Proof.Spec

noncomputable section

namespace Cert.Triplet.Ker

open scoped BigOperators

/-! ## Cutting a range into equal blocks -/

/-- A sum over `N = m n` numbers is the sum over the `m` blocks of the sums over the `n` places of a block. -/
theorem sum_fin_blocks {M : Type*} [AddCommMonoid M] {N : ℕ} (m n : ℕ) (h : m * n = N) (f : Fin N → M) :
    ∑ x, f x = ∑ i : Fin m, ∑ j : Fin n, f (Fin.cast h (finProdFinEquiv (i, j))) := by
  subst h
  rw [← Equiv.sum_comp finProdFinEquiv f, Fintype.sum_prod_type]
  rfl

/-- The number at place `j` of block `i`. -/
theorem blocks_val {N : ℕ} (m n : ℕ) (h : m * n = N) (i : Fin m) (j : Fin n) :
    (Fin.cast h (finProdFinEquiv (i, j))).val = j.val + n * i.val := rfl

/-- Six nested sums, the three block sums brought to the front. -/
theorem sum6_regroup {M : Type*} [AddCommMonoid M] {ι₀ ι₁ ι₂ α β γ : Type*} [Fintype ι₀] [Fintype ι₁] [Fintype ι₂]
    [Fintype α] [Fintype β] [Fintype γ] (G : ι₀ → α → ι₁ → β → ι₂ → γ → M) :
    ∑ i0, ∑ a, ∑ i1, ∑ p, ∑ i2, ∑ n, G i0 a i1 p i2 n = ∑ i0, ∑ i1, ∑ i2, ∑ a, ∑ p, ∑ n, G i0 a i1 p i2 n := by
  calc ∑ i0, ∑ a, ∑ i1, ∑ p, ∑ i2, ∑ n, G i0 a i1 p i2 n
      = ∑ i0, ∑ i1, ∑ a, ∑ p, ∑ i2, ∑ n, G i0 a i1 p i2 n := Finset.sum_congr rfl fun i0 _ => Finset.sum_comm
    _ = ∑ i0, ∑ i1, ∑ a, ∑ i2, ∑ p, ∑ n, G i0 a i1 p i2 n :=
        Finset.sum_congr rfl fun i0 _ => Finset.sum_congr rfl fun i1 _ => Finset.sum_congr rfl fun a _ => Finset.sum_comm
    _ = ∑ i0, ∑ i1, ∑ i2, ∑ a, ∑ p, ∑ n, G i0 a i1 p i2 n :=
        Finset.sum_congr rfl fun i0 _ => Finset.sum_congr rfl fun i1 _ => Finset.sum_comm

/-! ## The accumulator after every step -/

/-- An accumulator from zero that adds `B t` at step `t` is, after `T` steps, the sum of the first `T` of them. -/
theorem acc_eq_sum_range {M : Type*} [AddCommMonoid M] (B : ℕ → M) (acc : ℕ → M) (T : ℕ) (h0 : acc 0 = 0)
    (hstep : ∀ t, t < T → acc (t + 1) = acc t + B t) : acc T = ∑ t ∈ Finset.range T, B t := by
  induction T with
  | zero => simpa using h0
  | succ T ih =>
    rw [Finset.sum_range_succ, hstep T (Nat.lt_succ_self T), ih fun t ht => hstep t (Nat.lt_succ_of_lt ht)]

/-- THE BLOCKWISE LAW, the block's rows given as functions of the step with their values: after the 128 steps the
    accumulator is the sum over all triples. -/
theorem blockwise_sum_of_val (g : Fin 512 → Fin 512 → Fin 512 → EReal) (acc : ℕ → EReal)
    (rowA : ℕ → Fin 64 → Fin 512) (rowP rowN : ℕ → Fin 128 → Fin 512)
    (hA : ∀ t, t < 128 → ∀ a, (rowA t a).val = 64 * (t / 16) + a.val)
    (hP : ∀ t, t < 128 → ∀ p, (rowP t p).val = 128 * (t / 4 % 4) + p.val)
    (hN : ∀ t, t < 128 → ∀ n, (rowN t n).val = 128 * (t % 4) + n.val)
    (h0 : acc 0 = 0)
    (hstep : ∀ t, t < 128 → acc (t + 1) = acc t + ∑ a : Fin 64, ∑ p : Fin 128, ∑ n : Fin 128, g (rowA t a) (rowP t p) (rowN t n)) :
    acc 128 = ∑ a, ∑ p, ∑ n, g a p n := by
  rw [acc_eq_sum_range (fun t => ∑ a : Fin 64, ∑ p : Fin 128, ∑ n : Fin 128, g (rowA t a) (rowP t p) (rowN t n)) acc 128 h0 hstep,
    Finset.sum_range, sum_fin_blocks 8 16 rfl]
  -- the right side: each of the three row ranges cut into its blocks, the block sums in front
  have hR : ∑ a, ∑ p, ∑ n, g a p n
      = ∑ i0 : Fin 8, ∑ i1 : Fin 4, ∑ i2 : Fin 4, ∑ a : Fin 64, ∑ p : Fin 128, ∑ n : Fin 128,
          g (Fin.cast (by rfl : 8 * 64 = 512) (finProdFinEquiv (i0, a))) (Fin.cast (by rfl : 4 * 128 = 512) (finProdFinEquiv (i1, p)))
            (Fin.cast (by rfl : 4 * 128 = 512) (finProdFinEquiv (i2, n))) := by
    rw [← sum6_regroup, sum_fin_blocks 8 64 rfl]
    refine Finset.sum_congr rfl fun i0 _ => Finset.sum_congr rfl fun a _ => ?_
    rw [sum_fin_blocks 4 128 rfl]
    refine Finset.sum_congr rfl fun i1 _ => Finset.sum_congr rfl fun p _ => ?_
    rw [sum_fin_blocks 4 128 rfl]
  rw [hR]
  refine Finset.sum_congr rfl fun i0 _ => ?_
  rw [sum_fin_blocks 4 4 rfl]
  refine Finset.sum_congr rfl fun i1 _ => Finset.sum_congr rfl fun i2 _ => ?_
  refine Finset.sum_congr rfl fun a _ => Finset.sum_congr rfl fun p _ => Finset.sum_congr rfl fun n _ => ?_
  -- at the step whose number is that of block (i0, i1, i2), the three rows are the block's
  have key : ∀ T : Fin 128, T.val = i2.val + 4 * i1.val + 16 * i0.val →
      g (rowA T.val a) (rowP T.val p) (rowN T.val n)
        = g (Fin.cast (by rfl : 8 * 64 = 512) (finProdFinEquiv (i0, a))) (Fin.cast (by rfl : 4 * 128 = 512) (finProdFinEquiv (i1, p)))
            (Fin.cast (by rfl : 4 * 128 = 512) (finProdFinEquiv (i2, n))) := by
    intro T ht
    have h0' := i0.isLt; have h1' := i1.isLt; have h2' := i2.isLt
    have eA := hA T.val T.isLt a
    have eP := hP T.val T.isLt p
    have eN := hN T.val T.isLt n
    have e1 : rowA T.val a = Fin.cast (by rfl : 8 * 64 = 512) (finProdFinEquiv (i0, a)) :=
      Fin.ext (by rw [eA, blocks_val]; omega)
    have e2 : rowP T.val p = Fin.cast (by rfl : 4 * 128 = 512) (finProdFinEquiv (i1, p)) :=
      Fin.ext (by rw [eP, blocks_val]; omega)
    have e3 : rowN T.val n = Fin.cast (by rfl : 4 * 128 = 512) (finProdFinEquiv (i2, n)) :=
      Fin.ext (by rw [eN, blocks_val]; omega)
    rw [e1, e2, e3]
  exact key _ rfl

/-- The same with the rows written out. -/
theorem blockwise_sum (g : Fin 512 → Fin 512 → Fin 512 → EReal) (acc : ℕ → EReal) (h0 : acc 0 = 0)
    (hstep : ∀ t, (ht : t < 128) → acc (t + 1) = acc t + ∑ a : Fin 64, ∑ p : Fin 128, ∑ n : Fin 128,
      g ⟨64 * (t / 16) + a.val, by have := a.isLt; omega⟩ ⟨128 * (t / 4 % 4) + p.val, by have := p.isLt; omega⟩
        ⟨128 * (t % 4) + n.val, by have := n.isLt; omega⟩) :
    acc 128 = ∑ a, ∑ p, ∑ n, g a p n :=
  blockwise_sum_of_val g acc
    (fun t a => if ht : t < 128 then ⟨64 * (t / 16) + a.val, by have := a.isLt; omega⟩ else 0)
    (fun t p => if ht : t < 128 then ⟨128 * (t / 4 % 4) + p.val, by have := p.isLt; omega⟩ else 0)
    (fun t n => if ht : t < 128 then ⟨128 * (t % 4) + n.val, by have := n.isLt; omega⟩ else 0)
    (fun t ht a => by simp only [dif_pos ht]) (fun t ht p => by simp only [dif_pos ht]) (fun t ht n => by simp only [dif_pos ht])
    h0 (fun t ht => by simp only [dif_pos ht]; exact hstep t ht)

/-! ## The summand with the masks read as bits -/

/-- With the two mask values the numbers of two bits, the block's summand is the specification's term. -/
theorem summand_eq_term (D : Fin 512 → Fin 512 → EReal) (P N : Fin 512 → Fin 512 → BitVec 1) (a p n : Fin 512)
    (dp dn mp mn : EReal) (hdp : dp = D a p) (hdn : dn = D a n) (hmp : mp = bitVal (P a p)) (hmn : mn = bitVal (N a n)) :
    Idealize.ShloMosaic.Ideal.logistic (ten * (dp - dn)) * (mp * mn) = term D P N a p n := by
  subst hdp hdn hmp hmn
  rfl

end Cert.Triplet.Ker

end
-- ==== Proof.KerValue.lean ====
/-
  What the accumulation kernel's body leaves in its one-element output buffer, as the pure term of its arithmetic.

  The body loads its four input blocks whole and stores, over the whole buffer, the block term of them and of the
  buffer's value: at the first grid point that value is the zero it has just stored there and read back; at a later
  point it is the running value it found.
-/
import proofs.«127717_j42193758716072_2_alg».proof.Proof.Gen.KernelIdeal.Skeleton
import proofs.«127717_j42193758716072_2_alg».proof.Proof.KI.Reg1
import Idealize.ShloMosaic.Lib.Pipeline.Value

set_option maxRecDepth 16384

noncomputable section

namespace Cert.Triplet.Ker

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The offsets of a whole-block rectangle of a rank-2 buffer are zero. -/
theorem hz_rank2 : (![0, 0] : Fin 2 → Nat) = fun _ => 0 := funext fun a => by fin_cases a <;> rfl

/-- The accumulation body at the first grid point leaves the block term over the zero it stored first. -/
theorem out1_A_eq (c : Dev nD) (i : grid1.Coords) (arg3 : Memref sig .tc .vmem S64x128 .f32) (harg3 : arg3.IsWhole)
    (arg4 : Memref sig .tc .vmem S64x128 .f32) (harg4 : arg4.IsWhole) (arg5 : Memref sig .tc .vmem S64x128 .f32) (harg5 : arg5.IsWhole)
    (arg6 : Memref sig .tc .vmem S64x128 .f32) (harg6 : arg6.IsWhole) (arg7 : Memref sig .tc .vmem S1x1 .f32) (harg7 : arg7.IsWhole)
    (hc0 : cond1 i) (x0 x1 x2 x3 : Vec F S64x128 .f32) :
    out1_A c i arg3 harg3 arg4 harg4 arg5 harg5 arg6 harg6 arg7 harg7 hc0 x0 x1 x2 x3 = k1_pay2 x0 x1 x2 x3 k1_pay1 := by
  unfold out1_A
  rw [View.read_writes_eq_canon _ _ _ (cover1_A c i arg3 harg3 arg4 harg4 arg5 harg5 arg6 harg6 arg7 harg7 hc0 x0 x1 x2 x3)]
  unfold kernelRun1_A
  dsimp only
  sl_unfold_words
  rw [View.canon_cons_unit_zero (S := S1x1) hz_rank2, View.readCov_unit_zero (S := S1x1) _ hz_rank2]
  simp only [View.readAt_eq_ld, harg3.read_unread, harg4.read_unread, harg5.read_unread, harg6.read_unread,
    View.ld_unit_zero (S := S64x128) hz_rank2]

/-- The accumulation body at a later grid point leaves the block term over the running value it found. -/
theorem out1_B_eq (c : Dev nD) (i : grid1.Coords) (arg3 : Memref sig .tc .vmem S64x128 .f32) (harg3 : arg3.IsWhole)
    (arg4 : Memref sig .tc .vmem S64x128 .f32) (harg4 : arg4.IsWhole) (arg5 : Memref sig .tc .vmem S64x128 .f32) (harg5 : arg5.IsWhole)
    (arg6 : Memref sig .tc .vmem S64x128 .f32) (harg6 : arg6.IsWhole) (arg7 : Memref sig .tc .vmem S1x1 .f32) (harg7 : arg7.IsWhole)
    (hc0 : ¬cond1 i) (x0 x1 x2 x3 : Vec F S64x128 .f32) (xo : Vec F S1x1 .f32) :
    out1_B c i arg3 harg3 arg4 harg4 arg5 harg5 arg6 harg6 arg7 harg7 hc0 x0 x1 x2 x3 xo = k1_pay2 x0 x1 x2 x3 xo := by
  unfold out1_B
  rw [View.read_writes_eq_canon _ _ _ (cover1_B c i arg3 harg3 arg4 harg4 arg5 harg5 arg6 harg6 arg7 harg7 hc0 x0 x1 x2 x3 xo)]
  unfold kernelRun1_B
  dsimp only
  rw [View.canon_unit_zero (S := S1x1) hz_rank2]
  simp only [View.readAt_eq_ld, harg3.read_unread, harg4.read_unread, harg5.read_unread, harg6.read_unread, harg7.read_unread,
    View.ld_unit_zero (S := S64x128) hz_rank2, View.ld_unit_zero (S := S1x1) hz_rank2]

end Cert.Triplet.Ker

end
-- ==== Proof.KerTotal.lean ====
/-
  The accumulation kernel's total: after the last of its 128 grid points the one-element buffer holds the sum of
  the specification's term over all 512 x 512 x 512 triples.

  At the first point the buffer holds zero plus the first block's sum; at every later point what the point before
  left plus that point's block's sum.  A block's entries are the arrays' entries at the block's rows, so with the
  distance array holding `D` and the two mask arrays the numbers of the bits `P` and `N`, a block's summand is the
  specification's term at those rows.  The blockwise law then gives the sum over all triples.
-/
import proofs.«127717_j42193758716072_2_alg».proof.Proof.KI.Value
import proofs.«127717_j42193758716072_2_alg».proof.Proof.KI.Reg1
import proofs.«127717_j42193758716072_2_alg».proof.Proof.KerBlock
import proofs.«127717_j42193758716072_2_alg».proof.Proof.KerSum
import proofs.«127717_j42193758716072_2_alg».proof.Proof.KerValue

set_option maxRecDepth 16384

noncomputable section

namespace Cert.Triplet.Ker

open Cert.KernelIdeal Cert.KernelIdeal.Gen Cert.KernelIdeal.Run
open Idealize.ShloMosaic Idealize.ShloMosaic.TcCoe Idealize.ShloMosaic.ValueIdx
open Idealize.SL Idealize.SL.Sem

/-! ## One block's sum, over any four blocks -/

/-- The sum over a block's 64 anchors, 128 positives and 128 negatives of the logistic of ten times the margin times
    the two mask values. -/
def blockSum (x0 x1 x2 x3 : Vec Ideal S64x128 .f32) : EReal :=
  ∑ a : Fin 64, ∑ p : Fin 128, ∑ n : Fin 128, Ideal.logistic (ten * (x0 (ix2 a p) - x1 (ix2 a n))) * (x2 (ix2 a p) * x3 (ix2 a n))

/-- The first point leaves zero plus the block's sum. -/
theorem out1_A_apply (c : Dev nD) (i : grid1.Coords) (arg3 : Memref sig .tc .vmem S64x128 .f32) (harg3 : arg3.IsWhole)
    (arg4 : Memref sig .tc .vmem S64x128 .f32) (harg4 : arg4.IsWhole) (arg5 : Memref sig .tc .vmem S64x128 .f32) (harg5 : arg5.IsWhole)
    (arg6 : Memref sig .tc .vmem S64x128 .f32) (harg6 : arg6.IsWhole) (arg7 : Memref sig .tc .vmem S1x1 .f32) (harg7 : arg7.IsWhole)
    (hc0 : cond1 i) (x0 x1 x2 x3 : Vec Ideal S64x128 .f32) :
    out1_A (F := Ideal) c i arg3 harg3 arg4 harg4 arg5 harg5 arg6 harg6 arg7 harg7 hc0 x0 x1 x2 x3 (ix2 (0 : Fin 1) (0 : Fin 1)) = 0 + blockSum x0 x1 x2 x3 := by
  rw [out1_A_eq, k1_pay2_apply, k1_pay1_apply]
  rfl

/-- A later point leaves the running value plus the block's sum. -/
theorem out1_B_apply (c : Dev nD) (i : grid1.Coords) (arg3 : Memref sig .tc .vmem S64x128 .f32) (harg3 : arg3.IsWhole)
    (arg4 : Memref sig .tc .vmem S64x128 .f32) (harg4 : arg4.IsWhole) (arg5 : Memref sig .tc .vmem S64x128 .f32) (harg5 : arg5.IsWhole)
    (arg6 : Memref sig .tc .vmem S64x128 .f32) (harg6 : arg6.IsWhole) (arg7 : Memref sig .tc .vmem S1x1 .f32) (harg7 : arg7.IsWhole)
    (hc0 : ¬cond1 i) (x0 x1 x2 x3 : Vec Ideal S64x128 .f32) (xo : Vec Ideal S1x1 .f32) :
    out1_B (F := Ideal) c i arg3 harg3 arg4 harg4 arg5 harg5 arg6 harg6 arg7 harg7 hc0 x0 x1 x2 x3 xo (ix2 (0 : Fin 1) (0 : Fin 1))
      = xo (ix2 (0 : Fin 1) (0 : Fin 1)) + blockSum x0 x1 x2 x3 := by
  rw [out1_B_eq, k1_pay2_apply]
  rfl

/-- With the blocks' entries the entries of `D` and the numbers of the bits of `P` and `N` at rows `A a`, `Pp p`,
    `Nn n`, the block's sum is the sum of the specification's term over those rows. -/
theorem blockSum_term (D : Fin 512 → Fin 512 → EReal) (P N : Fin 512 → Fin 512 → BitVec 1)
    (x0 x1 x2 x3 : Vec Ideal S64x128 .f32) (A : Fin 64 → Fin 512) (Pp Nn : Fin 128 → Fin 512)
    (h0 : ∀ a p, x0 (ix2 a p) = D (A a) (Pp p)) (h1 : ∀ a n, x1 (ix2 a n) = D (A a) (Nn n))
    (h2 : ∀ a p, x2 (ix2 a p) = bitVal (P (A a) (Pp p))) (h3 : ∀ a n, x3 (ix2 a n) = bitVal (N (A a) (Nn n))) :
    blockSum x0 x1 x2 x3 = ∑ a : Fin 64, ∑ p : Fin 128, ∑ n : Fin 128, term D P N (A a) (Pp p) (Nn n) := by
  unfold blockSum
  refine Finset.sum_congr rfl fun a _ => Finset.sum_congr rfl fun p _ => Finset.sum_congr rfl fun n _ => ?_
  exact summand_eq_term D P N (A a) (Pp p) (Nn n) _ _ _ _ (h0 a p) (h1 a n) (h2 a p) (h3 a n)

/-! ## The running value, point by point -/

variable (V : (c : Dev nD) → (b : Ref sig .tc) → Buf (Elt Ideal) ((c : Thread nD τ).loc b)) (c : Dev nD)

/-- The four blocks' sum at point `T`. -/
def blockSumAt (T : Fin cfg1.N) : EReal :=
  blockSum (iblk1 V c 0 T) (iblk1 V c 1 T) (iblk1 V c 2 T) (iblk1 V c 3 T)

/-- At the first point the buffer's value is zero plus that point's block's sum. -/
theorem outsAt1_apply_A (T : Fin cfg1.N) (h0 : T.val % 128 = 0) :
    outsAt1 V c T.val T.isLt (ix2 (0 : Fin 1) (0 : Fin 1)) = 0 + blockSumAt V c T :=
  (congrFun (outsAt1_A V c T h0) (ix2 (0 : Fin 1) (0 : Fin 1))).trans
    (out1_A_apply c (grid1.coords T) (ms1_0 T) (hs1_0 T) (ms1_1 T) (hs1_1 T) (ms1_2 T) (hs1_2 T) (ms1_3 T) (hs1_3 T) (ms1_4 T) (hs1_4 T) ((hcond1 T).mpr h0) (iblk1 V c 0 T) (iblk1 V c 1 T) (iblk1 V c 2 T) (iblk1 V c 3 T))

/-- At a later point it is what the point before left plus that point's block's sum. -/
theorem outsAt1_apply_B (T : Fin cfg1.N) (h0 : ¬T.val % 128 = 0) :
    outsAt1 V c T.val T.isLt (ix2 (0 : Fin 1) (0 : Fin 1))
      = outsAt1 V c (T.val - 1) (Nat.lt_of_le_of_lt (Nat.sub_le _ _) T.isLt) (ix2 (0 : Fin 1) (0 : Fin 1)) + blockSumAt V c T :=
  (congrFun (outsAt1_B V c T h0) (ix2 (0 : Fin 1) (0 : Fin 1))).trans
    (out1_B_apply c (grid1.coords T) (ms1_0 T) (hs1_0 T) (ms1_1 T) (hs1_1 T) (ms1_2 T) (hs1_2 T) (ms1_3 T) (hs1_3 T) (ms1_4 T) (hs1_4 T) (fun h => h0 ((hcond1 T).mp h)) (iblk1 V c 0 T) (iblk1 V c 1 T) (iblk1 V c 2 T) (iblk1 V c 3 T)
      (outsAt1 V c (T.val - 1) (Nat.lt_of_le_of_lt (Nat.sub_le _ _) T.isLt)))

variable (D : Fin 512 → Fin 512 → EReal) (P N : Fin 512 → Fin 512 → BitVec 1)

/-- A point's block's sum is the sum of the specification's term over the block's rows. -/
theorem blockSumAt_term (hD : ∀ a p, V c main_v0 (ix2 a p) = D a p) (hP : ∀ a p, V c main_v13 (ix2 a p) = bitVal (P a p))
    (hN : ∀ a n, V c main_v15 (ix2 a n) = bitVal (N a n)) (T : Fin cfg1.N) (ht : T.val < 128) :
    blockSumAt V c T = ∑ a : Fin 64, ∑ p : Fin 128, ∑ n : Fin 128, term D P N ⟨64 * (T.val / 16) + a.val, by have := a.isLt; omega⟩ ⟨128 * (T.val / 4 % 4) + p.val, by have := p.isLt; omega⟩
          ⟨128 * (T.val % 4) + n.val, by have := n.isLt; omega⟩ :=
  blockSum_term D P N (iblk1 V c 0 T) (iblk1 V c 1 T) (iblk1 V c 2 T) (iblk1 V c 3 T)
    (fun a => ⟨64 * (T.val / 16) + a.val, by have := a.isLt; omega⟩)
    (fun p => ⟨128 * (T.val / 4 % 4) + p.val, by have := p.isLt; omega⟩)
    (fun n => ⟨128 * (T.val % 4) + n.val, by have := n.isLt; omega⟩)
    (fun a p => (iblk1_0_apply V c T a p _ _ rfl rfl).trans (hD _ _))
    (fun a n => (iblk1_1_apply V c T a n _ _ rfl rfl).trans (hD _ _))
    (fun a p => (iblk1_2_apply V c T a p _ _ rfl rfl).trans (hP _ _))
    (fun a n => (iblk1_3_apply V c T a n _ _ rfl rfl).trans (hN _ _))

/-- The buffer's value after point `n` (zero past the grid). -/
def accN (n : ℕ) : EReal :=
  if h : n < cfg1.N then outsAt1 V c n h (ix2 (0 : Fin 1) (0 : Fin 1)) else 0

/-- The value before point `t`: zero before the first, else what the point before left. -/
def accS : ℕ → EReal
  | 0 => 0
  | t + 1 => accN V c t

theorem accN_of_lt (n : ℕ) (h : n < cfg1.N) : accN V c n = outsAt1 V c n h (ix2 (0 : Fin 1) (0 : Fin 1)) := dif_pos h

/-- One step of the running value: point `t` adds its block's sum of the specification's term. -/
theorem accS_step (hD : ∀ a p, V c main_v0 (ix2 a p) = D a p) (hP : ∀ a p, V c main_v13 (ix2 a p) = bitVal (P a p))
    (hN : ∀ a n, V c main_v15 (ix2 a n) = bitVal (N a n)) (t : ℕ) (ht : t < 128) :
    accS V c (t + 1) = accS V c t + ∑ a : Fin 64, ∑ p : Fin 128, ∑ n : Fin 128, term D P N ⟨64 * (t / 16) + a.val, by have := a.isLt; omega⟩ ⟨128 * (t / 4 % 4) + p.val, by have := p.isLt; omega⟩
          ⟨128 * (t % 4) + n.val, by have := n.isLt; omega⟩ := by
  have hlt : t < cfg1.N := lt_of_lt_of_eq ht (show cfg1.N = 128 from N_1).symm
  have hsum := blockSumAt_term V c D P N hD hP hN ⟨t, hlt⟩ ht
  have hstepN : accN V c t = accS V c t + blockSumAt V c ⟨t, hlt⟩ := by
    rw [accN_of_lt V c t hlt]
    by_cases h0 : t % 128 = 0
    · have e := outsAt1_apply_A V c ⟨t, hlt⟩ h0
      obtain rfl : t = 0 := by omega
      exact e
    · have e := outsAt1_apply_B V c ⟨t, hlt⟩ h0
      obtain ⟨s, rfl⟩ : ∃ s, t = s + 1 := ⟨t - 1, by omega⟩
      have hs : s < cfg1.N := Nat.lt_of_succ_lt hlt
      refine e.trans ?_
      show _ = accN V c s + _
      rw [accN_of_lt V c s hs]
      rfl
  exact hstepN.trans (congrArg (accS V c t + ·) hsum)

/-- THE KERNEL'S TOTAL: after the last point the buffer holds the sum of the term over all triples. -/
theorem outsAt1_total (hD : ∀ a p, V c main_v0 (ix2 a p) = D a p) (hP : ∀ a p, V c main_v13 (ix2 a p) = bitVal (P a p))
    (hN : ∀ a n, V c main_v15 (ix2 a n) = bitVal (N a n)) :
    outsAt1 V c tLast.val tLast.isLt (ix2 (0 : Fin 1) (0 : Fin 1)) = total D P N := by
  have hfin : accS V c 128 = outsAt1 V c tLast.val tLast.isLt (ix2 (0 : Fin 1) (0 : Fin 1)) :=
    accN_of_lt V c 127 tLast.isLt
  rw [← hfin]
  exact blockwise_sum (term D P N) (accS V c) rfl (accS_step V c D P N hD hP hN)

end Cert.Triplet.Ker

end
-- ==== Proof.RefMath.lean ====
/-
  The arithmetic of the triplet loss's masks and counts, apart from any program.

  A bit read as the number 0 or 1 turns a masked term into a product: choosing x where both bits are set and 0
  elsewhere is x times the two bits' numbers. A sum over the indices of a three-axis array is the triple sum over its
  coordinates. The number of triples whose two bits are both set, counted in 32-bit words, does not wrap (there are
  512³ = 2²⁷ triples), so read as a signed integer it is the natural-number count; and that count factors anchor by
  anchor into (number of set bits in the first table's row) times (number in the second's), by distributivity.
-/
import proofs.«127717_j42193758716072_2_alg».proof.Proof.Spec
import Idealize.ShloMosaic.Lib.IndicatorCount
import Idealize.ShloMosaic.Lib.ValueIdx

noncomputable section

namespace Cert.Triplet.Ref

open Idealize.ShloMosaic Idealize.ShloMosaic.ValueIdx

/-! ## Bits as numbers -/

theorem bitVal_zero : bitVal 0#1 = 0 := by simp [bitVal]
theorem bitVal_one : bitVal 1#1 = 1 := by simp [bitVal]

/-- Choosing x where both bits are set, 0 elsewhere, is x times the two bits read as numbers. -/
theorem select_andi (p n : BitVec 1) (x : EReal) :
    Scalar.select (IntOp.andi p n) x 0 = x * (bitVal p * bitVal n) := by
  rcases BitVec.eq_zero_or_eq_one p with rfl | rfl <;> rcases BitVec.eq_zero_or_eq_one n with rfl | rfl <;>
    simp [Scalar.select, IntOp.andi, bitVal_zero, bitVal_one]

/-- The two bits' conjunction read as a natural number is the product of the two. -/
theorem toNat_andi (p n : BitVec 1) : (IntOp.andi p n).toNat = p.toNat * n.toNat := by
  rcases BitVec.eq_zero_or_eq_one p with rfl | rfl <;> rcases BitVec.eq_zero_or_eq_one n with rfl | rfl <;>
    simp [IntOp.andi]

/-- A bit is set exactly when its number is 1; so the indicator of "set" is the bit's number. -/
theorem ite_eq_one (b : BitVec 1) : (if b = 1#1 then 1 else 0 : ℕ) = b.toNat := by
  rcases BitVec.eq_zero_or_eq_one b with rfl | rfl <;> simp

/-! ## A three-axis index set is the product of its coordinate ranges -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a three-axis index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- There are n0 · n1 · n2 indices. -/
theorem card_idx3 {n0 n1 n2 : Nat} : Fintype.card (⟨3, ![n0, n1, n2]⟩ : Shape).Idx = n0 * (n1 * n2) := by
  rw [Fintype.card_congr (idxEquiv3 (n0 := n0) (n1 := n1) (n2 := n2))]
  simp

/-! ## Real sums inside the extended reals -/

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The count -/

/-- The number of triples that count, as a natural number, anchor by anchor. -/
def natCount (P N : Fin 512 → Fin 512 → BitVec 1) : ℕ :=
  ∑ a, (∑ p, (P a p).toNat) * (∑ n, (N a n).toNat)

/-- The specification's count is that natural number. -/
theorem count_eq_natCount (P N : Fin 512 → Fin 512 → BitVec 1) : count P N = ((natCount P N : ℝ) : EReal) := by
  unfold count natCount bitVal
  rw [Nat.cast_sum, coe_sum]
  refine Finset.sum_congr rfl fun a _ => ?_
  rw [Nat.cast_mul, Nat.cast_sum, Nat.cast_sum, EReal.coe_mul, coe_sum, coe_sum]

/-- The triples whose two bits are both set number natCount. -/
theorem card_filter_eq_natCount (P N : Fin 512 → Fin 512 → BitVec 1) :
    (Finset.univ.filter fun k : (⟨3, ![512, 512, 512]⟩ : Shape).Idx => IntOp.andi (P (k 0) (k 1)) (N (k 0) (k 2)) = 1#1).card
      = natCount P N := by
  rw [Finset.card_filter, sum_idx3]
  unfold natCount
  refine Finset.sum_congr rfl fun a _ => ?_
  rw [Finset.sum_mul_sum]
  refine Finset.sum_congr rfl fun p _ => Finset.sum_congr rfl fun n _ => ?_
  rw [ite_eq_one]
  exact toNat_andi _ _

/-- At most 512³ = 2²⁷ triples count. -/
theorem natCount_le (P N : Fin 512 → Fin 512 → BitVec 1) : natCount P N ≤ 2 ^ 27 := by
  rw [← card_filter_eq_natCount]
  refine (Finset.card_le_univ _).trans ?_
  rw [card_idx3]
  norm_num

/-- A 32-bit word holding a number below 2³¹, read as a signed integer, is that number. -/
theorem toInt_ofNat_of_lt (n : ℕ) (h : n < 2 ^ 31) : (BitVec.ofNat 32 n).toInt = (n : ℤ) := by
  rw [BitVec.toInt_eq_toNat_of_lt (by simp; omega)]
  simp
  omega

/-- THE COUNT: the 32-bit count of the triples whose two bits are both set, read as a signed integer and then as a
    real, is the specification's count. -/
theorem count_word (P N : Fin 512 → Fin 512 → BitVec 1) :
    ((((BitVec.ofNat 32 (Finset.univ.filter fun k : (⟨3, ![512, 512, 512]⟩ : Shape).Idx =>
        IntOp.andi (P (k 0) (k 1)) (N (k 0) (k 2)) = 1#1).card).toInt : ℝ)) : EReal) = count P N := by
  rw [card_filter_eq_natCount, toInt_ofNat_of_lt _ (lt_of_le_of_lt (natCount_le P N) (by norm_num)), count_eq_natCount]
  norm_cast

end Cert.Triplet.Ref

end
-- ==== Proof.RefDist.lean ====
/-
  The reference's distance stage is the specification's distance.

  Read at the pair of rows (i, j), the stage that ends in the square root is
  sqrt (max ((|x i|² + |x j|²) - 2 (x i · x j)) eps): the two squared norms are the row sums of the squares (the
  sum's initial value is the zero word, the extended real 0), the inner product is the contraction of row i with
  column j of the transpose, which is row j.
-/
import proofs.«127717_j42193758716072_2_alg».proof.Proof.Spec
import proofs.«127717_j42193758716072_2_alg».proof.Proof.Gen.ReferenceIdeal.Read
import Idealize.ShloMosaic.Lib.IdealHost

noncomputable section

namespace Cert.Triplet.Ref

open Cert.ReferenceIdeal Cert.ReferenceIdeal.Read Idealize.ShloMosaic Idealize.ShloMosaic.ValueIdx

/-- The distance stage at (i, j) is the specification's distance of rows i and j. -/
theorem dist_stage (x : (⟨S512x256, .f32⟩ : BufTy).Contents (Elt Ideal)) (i j : Fin 512) :
    val_main_v14 (F := Ideal) x (ix2 i j) = Cert.Triplet.dist (fun i k => x (ix2 i k)) i j := by
  rw [val_main_v14_apply, val_main_v13_apply, val_main_v11_apply, val_main_v6_apply, val_main_v10_apply,
    val_main_v4_apply, val_main_v2_apply, val_main_v1_apply, val_main_v5_apply, val_main_v3_apply, val_main_v1_apply,
    val_main_v9_apply, val_main_cst_0_apply, val_main_v8_apply, val_main_v12_apply, val_main_cst_1_apply,
    val_main_cst_apply]
  simp only [val_main_v0_apply, val_main_v7_apply, Ideal.hostUnary_sqrt_def, Ideal.maximumf_def, Ideal.subf_def,
    Ideal.addf_def, Ideal.mulf_def, Ideal.ofBits_def, Ideal.ofBits_zero_f32, zero_add]
  have e1 : ∀ k : Fin 256, idx_main_v1 (idx_main_v2 (idx_main_v4 (ix2 i j))) k = ix2 i k := fun k => funext fun a => by
    match a with | ⟨0, _⟩ => rfl | ⟨1, _⟩ => rfl
  have e2 : ∀ k : Fin 256, idx_main_v1 (idx_main_v3 (idx_main_v5 (ix2 i j))) k = ix2 j k := fun k => funext fun a => by
    match a with | ⟨0, _⟩ => rfl | ⟨1, _⟩ => rfl
  have e3 : ∀ k : Fin 256, lidx_main_v8 (ix2 i j) k = ix2 i k := fun k => funext fun a => by
    match a with | ⟨0, _⟩ => rfl | ⟨1, _⟩ => rfl
  have e4 : ∀ k : Fin 256, idx_main_v7 (ridx_main_v8 (ix2 i j) k) = ix2 j k := fun k => funext fun a => by
    match a with | ⟨0, _⟩ => rfl | ⟨1, _⟩ => rfl
  simp only [e1, e2, e3, e4]
  rfl

end Cert.Triplet.Ref

end
-- ==== Proof.RefLoss.lean ====
/-
  The reference's result is the specification's loss.

  The two tables of bits are the reference's own stages (same label and not the diagonal; not the same label), read at a
  pair of rows and never opened. At a triple (a, p, n) the three-axis mask is the conjunction of the first table at
  (a, p) and the second at (a, n); the masked term is the logistic of ten times the margin of the two distances where the
  mask is set and 0 elsewhere, which is the specification's term; the float sum over all triples, from the zero word, is
  the specification's total; the 32-bit count of the set mask bits, read as a signed integer, is the specification's
  count; and the result is the quotient of the two.
-/
import proofs.«127717_j42193758716072_2_alg».proof.Proof.RefMath
import proofs.«127717_j42193758716072_2_alg».proof.Proof.RefDist

noncomputable section

namespace Cert.Triplet.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The rows of the argument array, by coordinates. -/
abbrev rows (x : (⟨S512x256, .f32⟩ : BufTy).Contents (Elt Ideal)) : Fin 512 → Fin 256 → EReal := fun i k => x (ix2 i k)

/-- The reference's table of positives (same label, another row), by coordinates: its own stage, unopened. -/
abbrev Pr (y : (⟨S512, .i32⟩ : BufTy).Contents (Elt Ideal)) : Fin 512 → Fin 512 → BitVec 1 :=
  fun a p => val_main_v26 (F := Ideal) y (ix2 a p)

/-- The reference's table of negatives (another label), by coordinates: its own stage, unopened. -/
abbrev Nr (y : (⟨S512, .i32⟩ : BufTy).Contents (Elt Ideal)) : Fin 512 → Fin 512 → BitVec 1 :=
  fun a n => val_main_v27 (F := Ideal) y (ix2 a n)

/-- The three-axis mask at (a, p, n) is the conjunction of the positives' bit at (a, p) and the negatives' at (a, n). -/
theorem mask_stage (y : (⟨S512, .i32⟩ : BufTy).Contents (Elt Ideal)) (a p n : Fin 512) :
    val_main_v32 (F := Ideal) y (ix3 a p n) = IntOp.andi (Pr y a p) (Nr y a n) := by
  rw [val_main_v32_apply, val_main_v30_apply, val_main_v28_apply, val_main_v31_apply, val_main_v29_apply]
  have e1 : idx_main_v28 (idx_main_v30 (ix3 a p n)) = ix2 a p := funext fun d => by
    match d with | ⟨0, _⟩ => rfl | ⟨1, _⟩ => rfl
  have e2 : idx_main_v29 (idx_main_v31 (ix3 a p n)) = ix2 a n := funext fun d => by
    match d with | ⟨0, _⟩ => rfl | ⟨1, _⟩ => rfl
  rw [e1, e2]

/-- The masked term at (a, p, n) is the specification's term. -/
theorem term_stage (x : (⟨S512x256, .f32⟩ : BufTy).Contents (Elt Ideal)) (y : (⟨S512, .i32⟩ : BufTy).Contents (Elt Ideal))
    (a p n : Fin 512) :
    val_main_v46 (F := Ideal) x y (ix3 a p n) = term (dist (rows x)) (Pr y) (Nr y) a p n := by
  rw [val_main_v46_apply, mask_stage, val_main_call0_v1_apply, val_main_call0_v0_apply, val_main_cst_5_apply,
    val_main_v45_apply, val_main_v44_apply, val_main_cst_4_apply, val_main_v43_apply, val_main_v42_apply,
    val_main_cst_3_apply, val_main_v41_apply, val_main_v40_apply, val_main_v39_apply, val_main_v38_apply,
    val_main_cst_2_apply, val_main_v37_apply, val_main_v35_apply, val_main_v33_apply, val_main_v36_apply,
    val_main_v34_apply]
  have e1 : idx_main_v33 (idx_main_v35 (ix3 a p n)) = ix2 a p := funext fun d => by
    match d with | ⟨0, _⟩ => rfl | ⟨1, _⟩ => rfl
  have e2 : idx_main_v34 (idx_main_v36 (ix3 a p n)) = ix2 a n := funext fun d => by
    match d with | ⟨0, _⟩ => rfl | ⟨1, _⟩ => rfl
  rw [e1, e2, dist_stage, dist_stage]
  simp only [Ideal.hostDivf_def, Ideal.addf_def, Ideal.hostUnary_exp_def, Ideal.hostNegf_def, Ideal.negf_def,
    Ideal.mulf_def, Ideal.subf_def, Ideal.ofBits_def, Ideal.ofBits_zero_f32, Ideal.ofBits_one_f32]
  rw [select_andi]
  rfl

/-- The float sum over all triples is the specification's total. -/
theorem total_stage (x : (⟨S512x256, .f32⟩ : BufTy).Contents (Elt Ideal)) (y : (⟨S512, .i32⟩ : BufTy).Contents (Elt Ideal))
    (i : S_.Idx) :
    val_main_v47 (F := Ideal) x y i = total (dist (rows x)) (Pr y) (Nr y) := by
  rw [val_main_v47_apply, val_main_cst_6_apply, Ideal.ofBits_def, Ideal.ofBits_zero_f32, zero_add, sum_idx3]
  unfold total
  exact Finset.sum_congr rfl fun a _ => Finset.sum_congr rfl fun p _ => Finset.sum_congr rfl fun n _ => term_stage x y a p n

/-- The count of the set mask bits, converted, is the specification's count. -/
theorem count_stage (y : (⟨S512, .i32⟩ : BufTy).Contents (Elt Ideal)) (i : S_.Idx) :
    val_main_v50 (F := Ideal) y i = count (Pr y) (Nr y) := by
  rw [val_main_v50_apply]
  unfold val_main_v49
  rw [Host.reduce_eq_fold]
  rw [Finset.filter_true_of_mem (fun k _ => funext fun b => b.elim0),
    show val_main_c_7 (F := Ideal) (Shape.Idx.first h_S_) = 0#32 from rfl,
    show val_main_v48 (F := Ideal) y = fun k => (val_main_v32 (F := Ideal) y k).setWidth 32 from rfl,
    IndicatorCount.fold_addi_setWidth_eq_card]
  have hm : ∀ k : S512x512x512.Idx,
      val_main_v32 (F := Ideal) y k = IntOp.andi (Pr y (k 0) (k 1)) (Nr y (k 0) (k 2)) := fun k => by
    conv_lhs => rw [eq_ix3 k]
    exact mask_stage y _ _ _
  simp only [hm]
  exact count_word (Pr y) (Nr y)

/-- The result stage is the specification's loss of the distances and the two tables. -/
theorem loss_stage (x : (⟨S512x256, .f32⟩ : BufTy).Contents (Elt Ideal)) (y : (⟨S512, .i32⟩ : BufTy).Contents (Elt Ideal)) :
    val_main_v51 (F := Ideal) x y = fun _ => loss (dist (rows x)) (Pr y) (Nr y) := by
  funext i
  rw [val_main_v51_apply, total_stage, count_stage, Ideal.hostDivf_def]
  rfl

/-- THE REFERENCE'S RESULT: the term its run states for the result buffer is, at every index, the specification's loss
    of the argument rows' distances and the reference's own two tables of the labels. -/
theorem result_eq (m : (ℓ : Loc nD τ sig) → Buf (Elt Ideal) ℓ) (c : Dev nD) :
    Cert.ReferenceIdeal.Value.res_main_v51 (F := Ideal) m c
      = fun _ => loss (dist (rows (m ((c.tc : Thread nD τ).loc main_arg0))))
          (Pr (m ((c.tc : Thread nD τ).loc main_arg2))) (Nr (m ((c.tc : Thread nD τ).loc main_arg2))) :=
  (val_main_v51_eq m c).trans (loss_stage _ _)

end Cert.Triplet.Ref

end
-- ==== Proof.RefMasks.lean ====
/-
  The reference's two tables of bits, opened to the labels.

  The positives' bit at (a, p) is the conjunction of "rows a and p carry the same label" and the complement of "a and p are
  the same row" (the two coordinates compared as 32-bit words, which are distinct for distinct rows below 2³²); the
  negatives' bit at (a, n) is the complement of "rows a and n carry the same label".
-/
import proofs.«127717_j42193758716072_2_alg».proof.Proof.RefLoss
import Idealize.ShloMosaic.Lib.Affine

noncomputable section

namespace Cert.Triplet.Ref

open Cert.ReferenceIdeal Cert.ReferenceIdeal.Gen Cert.ReferenceIdeal.Read Idealize.ShloMosaic Idealize.ShloMosaic.ValueIdx

/-- The same-label bit at (a, p) compares the two rows' labels. -/
theorem same_stage (y : (⟨S512, .i32⟩ : BufTy).Contents (Elt Ideal)) (a p : Fin 512) :
    val_main_v19 (F := Ideal) y (ix2 a p) = IntOp.cmpi .eq (y (ix1 a)) (y (ix1 p)) := by
  rw [val_main_v19_apply, val_main_v17_apply, val_main_v15_apply, val_main_v18_apply, val_main_v16_apply]
  have e1 : idx_main_v15 (idx_main_v17 (ix2 a p)) = ix1 a := funext fun d => by match d with | ⟨0, _⟩ => rfl
  have e2 : idx_main_v16 (idx_main_v18 (ix2 a p)) = ix1 p := funext fun d => by match d with | ⟨0, _⟩ => rfl
  rw [e1, e2]

/-- The positives' bit, opened. -/
theorem Pr_eq (y : (⟨S512, .i32⟩ : BufTy).Contents (Elt Ideal)) (a p : Fin 512) :
    Pr y a p = IntOp.andi (IntOp.cmpi .eq (y (ix1 a)) (y (ix1 p)))
      (~~~ IntOp.cmpi .eq (BitVec.ofNat 32 a.val) (BitVec.ofNat 32 p.val)) := by
  show val_main_v26 (F := Ideal) y (ix2 a p) = _
  rw [val_main_v26_apply, same_stage, val_main_v25_apply, val_main_v24_apply, val_main_v23_apply, val_main_v20_apply,
    val_main_v22_apply, val_main_c_apply, val_main_v21_apply]
  simp only [IntOp.addi, BitVec.add_zero]

/-- The negatives' bit, opened. -/
theorem Nr_eq (y : (⟨S512, .i32⟩ : BufTy).Contents (Elt Ideal)) (a n : Fin 512) :
    Nr y a n = ~~~ IntOp.cmpi .eq (y (ix1 a)) (y (ix1 n)) := by
  show val_main_v27 (F := Ideal) y (ix2 a n) = _
  rw [val_main_v27_apply, same_stage]

/-- The complement of a bit is set exactly when the bit is not. -/
theorem not_eq_one_iff (b : BitVec 1) : ~~~ b = 1#1 ↔ ¬ b = 1#1 := by
  rcases BitVec.eq_zero_or_eq_one b with rfl | rfl <;> decide

/-- A conjunction of bits is set exactly when both are. -/
theorem andi_eq_one_iff (b c : BitVec 1) : IntOp.andi b c = 1#1 ↔ b = 1#1 ∧ c = 1#1 := by
  rcases BitVec.eq_zero_or_eq_one b with rfl | rfl <;> rcases BitVec.eq_zero_or_eq_one c with rfl | rfl <;> decide

/-- Distinct rows have distinct 32-bit coordinates. -/
theorem ofNat_eq_iff (a p : Fin 512) : BitVec.ofNat 32 a.val = BitVec.ofNat 32 p.val ↔ a = p := by
  constructor
  · intro h
    have := congrArg BitVec.toNat h
    simp only [BitVec.toNat_ofNat] at this
    exact Fin.ext (by have := a.isLt; have := p.isLt; omega)
  · rintro rfl; rfl

/-- The positives' bit is set exactly for another row with the same label. -/
theorem Pr_eq_one_iff (y : (⟨S512, .i32⟩ : BufTy).Contents (Elt Ideal)) (a p : Fin 512) :
    Pr y a p = 1#1 ↔ y (ix1 a) = y (ix1 p) ∧ a ≠ p := by
  rw [Pr_eq, andi_eq_one_iff, not_eq_one_iff, IntOp.cmpi_eq, IntOp.cmpi_eq, ofNat_eq_iff]

/-- The negatives' bit is set exactly for a row with another label. -/
theorem Nr_eq_one_iff (y : (⟨S512, .i32⟩ : BufTy).Contents (Elt Ideal)) (a n : Fin 512) :
    Nr y a n = 1#1 ↔ y (ix1 a) ≠ y (ix1 n) := by
  rw [Nr_eq, not_eq_one_iff, IntOp.cmpi_eq]

end Cert.Triplet.Ref

end
-- ==== Proof.KerHost.lean ====
/-
  The kernel program's host operations, read at the ideal values.

  Between its two kernel calls the program computes, on the host, the same two tables of bits as the reference (same
  label and not the diagonal; not the same label: the same chain of operations on the label array), turns each bit into
  the number 0 or 1, and counts the triples anchor by anchor: the row sums of the two tables of numbers, their product, and
  the sum of the products over the anchors — the specification's count. After the second call it divides the kernel's
  one-element result by that count.
-/
import proofs.«127717_j42193758716072_2_alg».proof.Proof.Gen.KernelIdeal.Launch
import proofs.«127717_j42193758716072_2_alg».proof.Proof.RefMasks
import Idealize.ShloMosaic.Lib.StableHlo.Run
import Idealize.ShloMosaic.Lib.Pipeline.Value
import Idealize.ShloMosaic.PureOps.Ideal.Laws

noncomputable section

namespace Cert.Triplet.KerHost

open Cert.KernelIdeal Cert.KernelIdeal.Gen Idealize.ShloMosaic Idealize.ShloMosaic.TcCoe Idealize.SL.Sem
  Idealize.ShloMosaic.ValueIdx

/-! ## The two tables -/

/-- The host's table of positives, each bit as a number, is the reference's table of positives of the same labels. -/
theorem pos_term (y : S512.Idx → BitVec 32) :
    uitofp (F := Ideal) .f32
      (andi
        (cmpi CmpIPredicate.eq
          (broadcastInDim S512x512 ![0, 1] bcast_S512x1_S512x512_0_1 (broadcastInDim S512x1 ![0] bcast_S512_S512x1_0 y))
          (broadcastInDim S512x512 ![0, 1] bcast_S1x512_S512x512_0_1 (broadcastInDim S1x512 ![1] bcast_S512_S1x512_1 y)))
        (noti
          (cmpi CmpIPredicate.eq
            (addi (iotaInDim S512x512 32 0) (broadcastInDim S512x512 ![] bcast_S_S512x512 (constantI S_ 32 0#32)))
            (iotaInDim S512x512 32 1))))
      = fun i => bitVal (Ref.Pr y (i 0) (i 1)) := by
  funext i
  obtain ⟨a, p, rfl⟩ : ∃ a p, i = ix2 a p := ⟨i 0, i 1, eq_ix2 i⟩
  rfl

/-- The host's table of negatives, each bit as a number, is the reference's table of negatives of the same labels. -/
theorem neg_term (y : S512.Idx → BitVec 32) :
    uitofp (F := Ideal) .f32
      (noti
        (cmpi CmpIPredicate.eq
          (broadcastInDim S512x512 ![0, 1] bcast_S512x1_S512x512_0_1 (broadcastInDim S512x1 ![0] bcast_S512_S512x1_0 y))
          (broadcastInDim S512x512 ![0, 1] bcast_S1x512_S512x512_0_1 (broadcastInDim S1x512 ![1] bcast_S512_S1x512_1 y))))
      = fun i => bitVal (Ref.Nr y (i 0) (i 1)) := by
  funext i
  obtain ⟨a, n, rfl⟩ : ∃ a n, i = ix2 a n := ⟨i 0, i 1, eq_ix2 i⟩
  rfl

/-! ## Sums over a one-axis index set, and a row sum -/

def idxEquiv1 {n : Nat} : (⟨1, ![n]⟩ : Shape).Idx ≃ Fin n where
  toFun i := i 0
  invFun a := ix1 a
  left_inv i := (eq_ix1 i).symm
  right_inv _ := rfl

/-- A sum over a one-axis index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum along a row of a table of bits read as numbers, from the initial value c0. -/
theorem row_sum (Q : Fin 512 → Fin 512 → BitVec 1) (c0 : EReal) (a : Fin 512) :
    Ideal.hostReduceAdd reducesTo_S512x512_S512_d1 (fun i : S512x512.Idx => bitVal (Q (i 0) (i 1))) c0 (ix1 a)
      = c0 + ∑ k : Fin 512, bitVal (Q a k) := by
  rw [Ideal.hostReduceAdd_single reducesTo_S512x512_S512_d1 (by decide)]
  refine congrArg (c0 + ·) (Finset.sum_congr rfl fun k _ => ?_)
  exact congrArg (fun i : S512x512.Idx => bitVal (Q (i 0) (i 1)))
    (funext fun d => Fin.ext (by match d with | ⟨0, _⟩ => rfl | ⟨1, _⟩ => rfl))

/-! ## The count -/

/-- Row sums of the two tables of numbers, multiplied anchor by anchor and summed over the anchors, all three sums from
    the zero word: the specification's count. -/
theorem count_term (P N : Fin 512 → Fin 512 → BitVec 1) :
    Host.reduceAdd (F := Ideal) (φ := .f32)
      (mulf
        (Host.reduceAdd (F := Ideal) (φ := .f32) (fun i : S512x512.Idx => bitVal (P (i 0) (i 1)))
          (constant S_ .f32 0x00000000#32) reducesTo_S512x512_S512_d1 h_S_)
        (Host.reduceAdd (F := Ideal) (φ := .f32) (fun i : S512x512.Idx => bitVal (N (i 0) (i 1)))
          (constant S_ .f32 0x00000000#32) reducesTo_S512x512_S512_d1 h_S_))
      (constant S_ .f32 0x00000000#32) reducesTo_S512_S_d0 h_S_
    = fun _ => count P N := by
  funext j
  simp only [Host.reduceAdd, Ideal.hostReduceAdd_def]
  rw [Ideal.hostReduceAdd_total reducesTo_S512_S_d0 (fun b => b.elim0), sum_idx1]
  unfold count
  show Ideal.ofBits .f32 0x00000000#32 + _ = _
  rw [Ideal.ofBits_zero_f32, zero_add]
  refine Finset.sum_congr rfl fun a _ => ?_
  show Ideal.hostReduceAdd _ _ _ (ix1 a) * Ideal.hostReduceAdd _ _ _ (ix1 a) = _
  rw [row_sum, row_sum]
  show (Ideal.ofBits .f32 0x00000000#32 + _) * (Ideal.ofBits .f32 0x00000000#32 + _) = _
  rw [Ideal.ofBits_zero_f32, zero_add, zero_add]

/-! ## The buffers after the host operations -/

/-- After the first stretch of host operations the positives' buffer holds the reference's table of positives of
    the label argument, each bit as a number. -/
theorem pos_after (W : Valuation τ sig (Elt Ideal)) :
    (StableHlo.after (hostOps1 (F := Ideal)) W (Proc.devRef .tc main_v13) : S512x512.Idx → EReal)
      = fun i => bitVal (Ref.Pr (W (Proc.devRef .tc main_arg2)) (i 0) (i 1)) := by
  dsimp only [hostOps1]
  after_results
  exact pos_term _

/-- … and the negatives' buffer the reference's table of negatives. -/
theorem neg_after (W : Valuation τ sig (Elt Ideal)) :
    (StableHlo.after (hostOps1 (F := Ideal)) W (Proc.devRef .tc main_v15) : S512x512.Idx → EReal)
      = fun i => bitVal (Ref.Nr (W (Proc.devRef .tc main_arg2)) (i 0) (i 1)) := by
  dsimp only [hostOps1]
  after_results
  exact neg_term _

/-- … and the count's buffer the specification's count of the two tables. -/
theorem count_after (W : Valuation τ sig (Elt Ideal)) :
    (StableHlo.after (hostOps1 (F := Ideal)) W (Proc.devRef .tc main_v19) : S_.Idx → EReal)
      = fun _ => count (Ref.Pr (W (Proc.devRef .tc main_arg2))) (Ref.Nr (W (Proc.devRef .tc main_arg2))) := by
  dsimp only [hostOps1]
  after_results
  rw [pos_term, neg_term]
  exact count_term (Ref.Pr _) (Ref.Nr _)

/-- After the second stretch the result buffer holds the quotient of the kernel's one-element result by the count. -/
theorem quot_after (W' : Valuation τ sig (Elt Ideal)) :
    (StableHlo.after (hostOps2 (F := Ideal)) W' (Proc.devRef .tc main_v22) : S_.Idx → EReal)
      = fun _ => Ideal.div ((W' (Proc.devRef .tc main_v20) : S1x1.Idx → EReal) (ix2 0 0))
          ((W' (Proc.devRef .tc main_v19) : S_.Idx → EReal) ix0) := by
  dsimp only [hostOps2]
  after_results
  funext j
  show Ideal.div (shapeCast S_ (W' (Proc.devRef .tc main_v20) : S1x1.Idx → EReal) shapeCasts_S1x1_S_ j)
    ((W' (Proc.devRef .tc main_v19) : S_.Idx → EReal) j) = _
  have hk : (S1x1.rowMajor (ix2 (0 : Fin 1) (0 : Fin 1))).val = (S_.rowMajor j).val := by
    rw [Shape.rowMajor_val_two]
    exact ((Shape.rowMajorPi_zero _ j).trans (by simp)).symm
  rw [shapeCast_apply _ _ j (ix2 0 0) hk, eq_ix0 j]

end Cert.Triplet.KerHost

end
-- ==== Proof.KI.Loss.lean ====
/-
  The kernel's result as the loss of the feature rows and the labels.

  At the triplet region's entry the distance array holds the distance term of the feature array (the host operations in
  between do not write it), the two mask arrays hold the membership bits as numbers, and the count buffer holds the
  number of valid triples. The region leaves the sum over all triples; the last host operations divide it by the count.
-/
import proofs.«127717_j42193758716072_2_alg».proof.Proof.KI.RunMain
import proofs.«127717_j42193758716072_2_alg».proof.Proof.KI.Value
import proofs.«127717_j42193758716072_2_alg».proof.Proof.KerDist
import proofs.«127717_j42193758716072_2_alg».proof.Proof.KerTotal
import proofs.«127717_j42193758716072_2_alg».proof.Proof.KerHost
import proofs.«127717_j42193758716072_2_alg».proof.Proof.RefLoss

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Triplet Idealize.ShloMosaic.ValueIdx

variable (m : (ℓ : Loc nD τ sig) → Buf (Elt Ideal) ℓ) (c : Dev nD)

/-- The labels are as launched when the host operations between the regions run. -/
theorem U1_labels : U1 m c (Proc.devRef .tc main_arg2) = m ((c : Thread nD τ).loc main_arg2) :=
  Function.update_of_ne (StableHlo.devRef_ne_of_ne (by decide)) _ _

/-- The distance array at the triplet region's entry: the distance term of the feature array. -/
theorem VV2_v0 : VV2 m c main_v0 = k0_pay1 (F := Ideal) (m ((c : Thread nD τ).loc main_arg0)) := by
  show U2 m c (Proc.devRef .tc main_v0) = _
  rw [show U2 m c (Proc.devRef .tc main_v0) = U1 m c (Proc.devRef .tc main_v0) from
    StableHlo.after_of_writes_sub hostOps1 _ Gen.hostOps1_writes (by decide)]
  rw [show U1 m c (Proc.devRef .tc main_v0) = o1 m c from Function.update_self _ _ _]
  unfold o1
  exact final0 (VV0 m) c

/-- The mask arrays and the count buffer at the triplet region's entry, in terms of the membership tables of the labels. -/
theorem VV2_v13 (a p : Fin 512) : VV2 m c main_v13 (ix2 a p) = bitVal (Ref.Pr (m ((c : Thread nD τ).loc main_arg2)) a p) := by
  show (StableHlo.after (hostOps1 (F := Ideal)) (U1 m c) (Proc.devRef .tc main_v13) : S512x512.Idx → EReal) (ix2 a p) = _
  rw [KerHost.pos_after, U1_labels]
  rfl
theorem VV2_v15 (a n : Fin 512) : VV2 m c main_v15 (ix2 a n) = bitVal (Ref.Nr (m ((c : Thread nD τ).loc main_arg2)) a n) := by
  show (StableHlo.after (hostOps1 (F := Ideal)) (U1 m c) (Proc.devRef .tc main_v15) : S512x512.Idx → EReal) (ix2 a n) = _
  rw [KerHost.neg_after, U1_labels]
  rfl
theorem U2_v19 : (U2 m c (Proc.devRef .tc main_v19) : S_.Idx → EReal)
    = fun _ => count (Ref.Pr (m ((c : Thread nD τ).loc main_arg2))) (Ref.Nr (m ((c : Thread nD τ).loc main_arg2))) := by
  show (StableHlo.after (hostOps1 (F := Ideal)) (U1 m c) (Proc.devRef .tc main_v19) : S_.Idx → EReal) = _
  rw [KerHost.count_after, U1_labels]

/-- The distance array read at an entry: the distance of two feature rows. -/
theorem VV2_v0_apply (a p : Fin 512) :
    VV2 m c main_v0 (ix2 a p) = dist (Ref.rows (m ((c : Thread nD τ).loc main_arg0))) a p := by
  rw [VV2_v0]; exact Ker.k0_pay1_apply _ a p

/-- What the triplet region leaves in its output array, at its one entry: the sum over all triples. -/
theorem o3_apply : o3 m c (ix2 (0 : Fin 1) (0 : Fin 1))
    = total (dist (Ref.rows (m ((c : Thread nD τ).loc main_arg0)))) (Ref.Pr (m ((c : Thread nD τ).loc main_arg2))) (Ref.Nr (m ((c : Thread nD τ).loc main_arg2))) := by
  unfold o3
  rw [final1 (VV2 m) c]
  exact Ker.outsAt1_total (VV2 m) c _ _ _ (VV2_v0_apply m c) (VV2_v13 m c) (VV2_v15 m c)

/-- THE RESULT: the last item's contents of the result buffer are the loss. -/
theorem result_eq : (Gen.V4 m (outs m) c (Proc.devRef .tc main_v22) : S_.Idx → EReal)
    = fun _ => loss (dist (Ref.rows (m ((c : Thread nD τ).loc main_arg0)))) (Ref.Pr (m ((c : Thread nD τ).loc main_arg2))) (Ref.Nr (m ((c : Thread nD τ).loc main_arg2))) := by
  show (StableHlo.after (hostOps2 (F := Ideal)) (Gen.V3 m (outs m) c) (Proc.devRef .tc main_v22) : S_.Idx → EReal) = _
  rw [KerHost.quot_after, V3_eq]
  rw [show (Function.update (U2 m c) (Proc.devRef .tc main_v20) (o3 m c)) (Proc.devRef .tc main_v20) = o3 m c from Function.update_self _ _ _,
    show (Function.update (U2 m c) (Proc.devRef .tc main_v20) (o3 m c)) (Proc.devRef .tc main_v19) = U2 m c (Proc.devRef .tc main_v19) from
      Function.update_of_ne (StableHlo.devRef_ne_of_ne (by decide)) _ _]
  rw [o3_apply, U2_v19]
  rfl

end Cert.KernelIdeal.Run

end
-- ==== Proof.lean ====
/-
  The certificate of the batch-all triplet loss kernel against its reference.

  The kernel computes the loss in two pipelined regions — the matrix of pairwise distances, then the sum over all
  (anchor, positive, negative) triples accumulated block by block over a grid of 128 points — with the two membership
  masks and the count of valid triples computed by host operations in between; the reference computes everything by
  host operations over the full 512³ cube. Read over the extended reals both give
  (sum over valid triples of logistic (10 (D a p − D a n))) / (number of valid triples).

  The three frame claims: each program terminates on every weakly fair execution, faults nowhere and leaves its
  arguments as launched. For the two kernel programs this is the launch over four items (region, host operations,
  region, host operations), each region given by its body's triple at every grid point and the pipeline's proof data;
  for the reference it is its run of host operations. The ideal pass rewrote nothing, so the preservation claim is
  trivial. The value claim joins the kernel's result, read off its run, to the reference's, read off its run: the
  same function of the feature rows and the labels.
-/
import proofs.«127717_j42193758716072_2_alg».proof.Defs
import proofs.«127717_j42193758716072_2_alg».proof.Proof.Gen.Kernel
import proofs.«127717_j42193758716072_2_alg».proof.Proof.Gen.KernelIdeal
import proofs.«127717_j42193758716072_2_alg».proof.Proof.Gen.ReferenceIdeal
import proofs.«127717_j42193758716072_2_alg».proof.Proof.Gen.Pre_finite_inputs
import proofs.«127717_j42193758716072_2_alg».proof.Proof.Gen.ReferenceIdeal.Read
import proofs.«127717_j42193758716072_2_alg».proof.Proof.K.RunMain
import proofs.«127717_j42193758716072_2_alg».proof.Proof.KI.RunMain
import proofs.«127717_j42193758716072_2_alg».proof.Proof.KI.Loss
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's run ends with the result buffer at the loss of the feature rows and the labels; the reference's run
    ends at the same function of its own arguments, which agree with the kernel's. -/
theorem algebraic : Cert.algebraic_KernelIdeal_ReferenceIdeal := by
  intro m ρ m' ρ' _ hagree
  refine ⟨fun c => Cert.KernelIdeal.Gen.V4 m (Cert.KernelIdeal.Run.outs m) c Cert.KernelIdeal.main_v22,
    Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.Triplet.Ref.result_eq, (hagree c).1, (hagree c).2.2]
  exact (Cert.KernelIdeal.Run.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
